-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024 : Shape := ⟨1, ![1024]⟩
abbrev S384x1024 : Shape := ⟨2, ![384, 1024]⟩
abbrev S8x1x1 : Shape := ⟨3, ![8, 1, 1]⟩
abbrev S1024x128 : Shape := ⟨2, ![1024, 128]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S384x1024 : S_.BroadcastsInDim S384x1024 (![] : Fin 0 → Fin S384x1024.rank)
  reducesTo_S384x1024_S_d0_1 : S384x1024.ReducesTo [0, 1] S_
  bcast_S_S8x1x1 : S_.BroadcastsInDim S8x1x1 (![] : Fin 0 → Fin S8x1x1.rank)
  reducesTo_S8x1x1_S_d0_1_2 : S8x1x1.ReducesTo [0, 1, 2] S_
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_arg4 : FVec F S1024x128 .f32) (main_v13 : IVec S_ 1) (main_v16 : IVec S8x1x1 1) : IVec S_ 1 :=
  let main_c_5 : IVec S_ 1 := constantI S_ 1 1#1
  let main_v17 : IVec S_ 1 := (fun x v => Host.reduce IntOp.andi x v reducesTo_S8x1x1_S_d0_1_2 h_S_) main_v16 main_c_5
  let main_v18 : IVec S_ 1 := andi main_v13 main_v17
  let main_v19 : FVec F S1024x128 .f32 := Host.absf main_arg4
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  main_v23

def fn {F : FTy → Type} [FloatOps F] (main_arg0 : FVec F S8x4096x1024 .f32) (main_arg1 : FVec F S1024 .f32) (main_arg2 : FVec F S384x1024 .f32) (main_arg3 : FVec F S8x1x1 .f32) (main_arg4 : FVec F S1024x128 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S384x1024 .f32 := Host.absf main_arg2
  let main_cst_2 : FVec F S_ .f32 := constant S_ .f32 0x7F800000#32
  let main_v10 : FVec F S384x1024 .f32 := broadcastInDim S384x1024 ![] bcast_S_S384x1024 main_cst_2
  let main_v11 : IVec S384x1024 1 := cmpf .olt main_v9 main_v10
  let main_c_3 : IVec S_ 1 := constantI S_ 1 1#1
  let main_v12 : IVec S_ 1 := (fun x v => Host.reduce IntOp.andi x v reducesTo_S384x1024_S_d0_1 h_S_) main_v11 main_c_3
  let main_v13 : IVec S_ 1 := andi main_v8 main_v12
  let main_v14 : FVec F S8x1x1 .f32 := Host.absf main_arg3
  let main_cst_4 : FVec F S_ .f32 := constant S_ .f32 0x7F800000#32
  let main_v15 : FVec F S8x1x1 .f32 := broadcastInDim S8x1x1 ![] bcast_S_S8x1x1 main_cst_4
  let main_v16 : IVec S8x1x1 1 := cmpf .olt main_v14 main_v15
  fn_part1 (F := F) main_arg4 main_v13 main_v16
-- ==== Kernel.lean ====
abbrev S8x4096x1024 : Shape := ⟨3, ![8, 4096, 1024]⟩
abbrev S1024 : Shape := ⟨1, ![1024]⟩
abbrev S384x1024 : Shape := ⟨2, ![384, 1024]⟩
abbrev S8x1x1 : Shape := ⟨3, ![8, 1, 1]⟩
abbrev S1024x128 : Shape := ⟨2, ![1024, 128]⟩
abbrev S32768x1024 : Shape := ⟨2, ![32768, 1024]⟩
abbrev S1024x384 : Shape := ⟨2, ![1024, 384]⟩
abbrev S32768x384 : Shape := ⟨2, ![32768, 384]⟩
abbrev S1024x1024 : Shape := ⟨2, ![1024, 1024]⟩
abbrev S1024x1 : Shape := ⟨2, ![1024, 1]⟩
abbrev S1x1024 : Shape := ⟨2, ![1, 1024]⟩
abbrev S8x4096x3x8x16 : Shape := ⟨5, ![8, 4096, 3, 8, 16]⟩
abbrev S3x8x8x16x4096 : Shape := ⟨5, ![3, 8, 8, 16, 4096]⟩
abbrev S1x8x8x16x4096 : Shape := ⟨5, ![1, 8, 8, 16, 4096]⟩
abbrev S8x8x16x4096 : Shape := ⟨4, ![8, 8, 16, 4096]⟩
abbrev S_ : Shape := ⟨0, ![]⟩
abbrev S8x8x16 : Shape := ⟨3, ![8, 8, 16]⟩
abbrev S8x8x16x1 : Shape := ⟨4, ![8, 8, 16, 1]⟩
abbrev S1x8x1x1 : Shape := ⟨4, ![1, 8, 1, 1]⟩
abbrev S8x8x16x16 : Shape := ⟨4, ![8, 8, 16, 16]⟩
abbrev S8x4096x8x16 : Shape := ⟨4, ![8, 4096, 8, 16]⟩
abbrev S8x4096x128 : Shape := ⟨3, ![8, 4096, 128]⟩
abbrev S32768x128 : Shape := ⟨2, ![32768, 128]⟩
abbrev S128x1024 : Shape := ⟨2, ![128, 1024]⟩

abbrev nBuf : Space → Nat
  | .hbm => 62
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S384x1024, .f32⟩
  | .hbm, ⟨3, _⟩ => ⟨S8x1x1, .f32⟩
  | .hbm, ⟨4, _⟩ => ⟨S1024x128, .f32⟩
  | .hbm, ⟨5, _⟩ => ⟨S32768x1024, .f32⟩
  | .hbm, ⟨6, _⟩ => ⟨S1024x384, .f32⟩
  | .hbm, ⟨7, _⟩ => ⟨S32768x384, .f32⟩
  | .hbm, ⟨8, _⟩ => ⟨S8x4096x3x8x16, .f32⟩
  | .hbm, ⟨9, _⟩ => ⟨S3x8x8x16x4096, .f32⟩
  | .hbm, ⟨10, _⟩ => ⟨S1x8x8x16x4096, .f32⟩
  | .hbm, ⟨11, _⟩ => ⟨S8x8x16x4096, .f32⟩
  | .hbm, ⟨12, _⟩ => ⟨S1x8x8x16x4096, .f32⟩
  | .hbm, ⟨13, _⟩ => ⟨S8x8x16x4096, .f32⟩
  | .hbm, ⟨14, _⟩ => ⟨S1x8x8x16x4096, .f32⟩
  | .hbm, ⟨15, _⟩ => ⟨S8x8x16x4096, .f32⟩
  | .hbm, ⟨16, _⟩ => ⟨S8x8x16x4096, .f32⟩
  | .hbm, ⟨17, _⟩ => ⟨S_, .f32⟩
  | .hbm, ⟨18, _⟩ => ⟨S8x8x16, .f32⟩
  | .hbm, ⟨19, _⟩ => ⟨S8x8x16x1, .f32⟩
  | .hbm, ⟨20, _⟩ => ⟨S8x8x16x1, .f32⟩
  | .hbm, ⟨21, _⟩ => ⟨S_, .f32⟩
  | .hbm, ⟨22, _⟩ => ⟨S8x8x16x1, .f32⟩
  | .hbm, ⟨23, _⟩ => ⟨S8x8x16x1, .f32⟩
  | .hbm, ⟨24, _⟩ => ⟨S8x8x16x4096, .f32⟩
  | .hbm, ⟨25, _⟩ => ⟨S8x8x16x4096, .f32⟩
  | .hbm, ⟨26, _⟩ => ⟨S8x8x16x4096, .f32⟩
  | .hbm, ⟨27, _⟩ => ⟨S_, .f32⟩
  | .hbm, ⟨28, _⟩ => ⟨S8x8x16, .f32⟩
  | .hbm, ⟨29, _⟩ => ⟨S8x8x16x1, .f32⟩
  | .hbm, ⟨30, _⟩ => ⟨S8x8x16x1, .f32⟩
  | .hbm, ⟨31, _⟩ => ⟨S_, .f32⟩
  | .hbm, ⟨32, _⟩ => ⟨S8x8x16x1, .f32⟩
  | .hbm, ⟨33, _⟩ => ⟨S8x8x16x1, .f32⟩
  | .hbm, ⟨34, _⟩ => ⟨S8x8x16x4096, .f32⟩
  | .hbm, ⟨35, _⟩ => ⟨S8x8x16x4096, .f32⟩
  | .hbm, ⟨36, _⟩ => ⟨S8x1x1, .f32⟩
  | .hbm, ⟨37, _⟩ => ⟨S1x8x1x1, .f32⟩
  | .hbm, ⟨38, _⟩ => ⟨S8x8x16x4096, .f32⟩
  | .hbm, ⟨39, _⟩ => ⟨S8x8x16x4096, .f32⟩
  | .hbm, ⟨40, _⟩ => ⟨S8x8x16x16, .f32⟩
  | .hbm, ⟨41, _⟩ => ⟨S_, .f32⟩
  | .hbm, ⟨42, _⟩ => ⟨S8x8x16, .f32⟩
  | .hbm, ⟨43, _⟩ => ⟨S_, .f32⟩
  | .hbm, ⟨44, _⟩ => ⟨S8x8x16, .f32⟩
  | .hbm, ⟨45, _⟩ => ⟨S8x8x16, .f32⟩
  | .hbm, ⟨46, _⟩ => ⟨S8x8x16x1, .f32⟩
  | .hbm, ⟨47, _⟩ => ⟨S8x8x16x16, .f32⟩
  | .hbm, ⟨48, _⟩ => ⟨S8x8x16x16, .f32⟩
  | .hbm, ⟨49, _⟩ => ⟨S8x8x16x16, .f32⟩
  | .hbm, ⟨50, _⟩ => ⟨S_, .f32⟩
  | .hbm, ⟨51, _⟩ => ⟨S8x8x16, .f32⟩
  | .hbm, ⟨52, _⟩ => ⟨S8x8x16x1, .f32⟩
  | .hbm, ⟨53, _⟩ => ⟨S8x8x16x16, .f32⟩
  | .hbm, ⟨54, _⟩ => ⟨S8x8x16x16, .f32⟩
  | .hbm, ⟨55, _⟩ => ⟨S8x8x16x4096, .f32⟩
  | .hbm, ⟨56, _⟩ => ⟨S8x4096x8x16, .f32⟩
  | .hbm, ⟨57, _⟩ => ⟨S8x4096x128, .f32⟩
  | .hbm, ⟨58, _⟩ => ⟨S32768x128, .f32⟩
  | .hbm, ⟨59, _⟩ => ⟨S128x1024, .f32⟩
  | .hbm, ⟨60, _⟩ => ⟨S32768x1024, .f32⟩
  | .hbm, ⟨61, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x128, .f32⟩
  | .local _ .vmem, ⟨7, _⟩ => ⟨S1024x128, .f32⟩
  | .local _ .vmem, ⟨8, _⟩ => ⟨S128x1024, .f32⟩
  | .local _ .vmem, ⟨9, _⟩ => ⟨S1024x1024, .f32⟩
  | .local _ .vmem, ⟨10, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S8x4096x1024_S32768x1024 : S8x4096x1024.ShapeCasts S32768x1024
  transposes_S384x1024_S1024x384_1_0 : S384x1024.Transposes [1, 0] S1024x384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  bitsLt_bf16_f32 : FTy.bits .bf16 < FTy.bits .f32
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  shapeCasts_S32768x384_S8x4096x3x8x16 : S32768x384.ShapeCasts S8x4096x3x8x16
  transposes_S8x4096x3x8x16_S3x8x8x16x4096_2_0_3_4_1 : S8x4096x3x8x16.Transposes [2, 0, 3, 4, 1] S3x8x8x16x4096
  slices_S3x8x8x16x4096_S1x8x8x16x4096_0_0_0_0_0 : S3x8x8x16x4096.Slices ![0, 0, 0, 0, 0] S1x8x8x16x4096
  shapeCasts_S1x8x8x16x4096_S8x8x16x4096 : S1x8x8x16x4096.ShapeCasts S8x8x16x4096
  slices_S3x8x8x16x4096_S1x8x8x16x4096_1_0_0_0_0 : S3x8x8x16x4096.Slices ![1, 0, 0, 0, 0] S1x8x8x16x4096
  slices_S3x8x8x16x4096_S1x8x8x16x4096_2_0_0_0_0 : S3x8x8x16x4096.Slices ![2, 0, 0, 0, 0] S1x8x8x16x4096
  reducesTo_S8x8x16x4096_S8x8x16_d3 : S8x8x16x4096.ReducesTo [3] S8x8x16
  h_S_ : 0 < S_.numel
  bcast_S8x8x16_S8x8x16x1_0_1_2 : S8x8x16.BroadcastsInDim S8x8x16x1 (![0, 1, 2] : Fin 3 → Fin S8x8x16x1.rank)
  bcast_S_S8x8x16x1 : S_.BroadcastsInDim S8x8x16x1 (![] : Fin 0 → Fin S8x8x16x1.rank)
  bcast_S8x8x16x1_S8x8x16x4096_0_1_2_3 : S8x8x16x1.BroadcastsInDim S8x8x16x4096 (![0, 1, 2, 3] : Fin 4 → Fin S8x8x16x4096.rank)
  bcast_S8x1x1_S1x8x1x1_1_2_3 : S8x1x1.BroadcastsInDim S1x8x1x1 (![1, 2, 3] : Fin 3 → Fin S1x8x1x1.rank)
  bcast_S1x8x1x1_S8x8x16x4096_0_1_2_3 : S1x8x1x1.BroadcastsInDim S8x8x16x4096 (![0, 1, 2, 3] : Fin 4 → Fin S8x8x16x4096.rank)
  reducesTo_S8x8x16x16_S8x8x16_d3 : S8x8x16x16.ReducesTo [3] S8x8x16
  bcast_S_S8x8x16 : S_.BroadcastsInDim S8x8x16 (![] : Fin 0 → Fin S8x8x16.rank)
  bcast_S8x8x16x1_S8x8x16x16_0_1_2_3 : S8x8x16x1.BroadcastsInDim S8x8x16x16 (![0, 1, 2, 3] : Fin 4 → Fin S8x8x16x16.rank)
  transposes_S8x8x16x4096_S8x4096x8x16_0_3_1_2 : S8x8x16x4096.Transposes [0, 3, 1, 2] S8x4096x8x16
  shapeCasts_S8x4096x8x16_S8x4096x128 : S8x4096x8x16.ShapeCasts S8x4096x128
  shapeCasts_S8x4096x128_S32768x128 : S8x4096x128.ShapeCasts S32768x128
  transposes_S1024x128_S128x1024_1_0 : S1024x128.Transposes [1, 0] S128x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  shapeCasts_S32768x1024_S8x4096x1024 : S32768x1024.ShapeCasts S8x4096x1024
  dot_S1024x1024_S1024x384_S1024x384_1_0_0_1_n_n_wf : DotDims.WF S1024x1024 S1024x384 S1024x384 [1] [0] [0] [1] [] []
  dot_S8x8x16x4096_S8x8x16x4096_S8x8x16x16_3_3_2_2_01_01_wf : DotDims.WF S8x8x16x4096 S8x8x16x4096 S8x8x16x16 [3] [3] [2] [2] [0, 1] [0, 1]
  dot_S8x8x16x16_S8x8x16x4096_S8x8x16x4096_3_2_2_3_01_01_wf : DotDims.WF S8x8x16x16 S8x8x16x4096 S8x8x16x4096 [3] [2] [2] [3] [0, 1] [0, 1]
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x384.size a ≤ S1024x384.size a
  hwx0_2 : ∀ i : grid0.Coords, EltTy.bits .f32 = 32 ∨ (Rect.block (s := S1024x384) S1024x384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x384.size a ≤ S32768x384.size a
  hwx0_3 : ∀ i : grid0.Coords, EltTy.bits .f32 = 32 ∨ (Rect.block (s := S32768x384) S1024x384.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S32768x128.size a
  hwx1_0 : ∀ i : grid1.Coords, EltTy.bits .f32 = 32 ∨ (Rect.block (s := S32768x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x1024.size a ≤ S128x1024.size a
  hwx1_1 : ∀ i : grid1.Coords, EltTy.bits .f32 = 32 ∨ (Rect.block (s := S128x1024) S128x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S32768x1024.size a
  hwx1_2 : ∀ i : grid1.Coords, EltTy.bits .f32 = 32 ∨ (Rect.block (s := S32768x1024) S1024x1024.size (cc1_transform_2 i) (hinb1_2 i)).WholeWords (EltTy.packing .f32)

variable [Facts₀]

def dot_S1024x1024_S1024x384_S1024x384_1_0_0_1_n_n : DotDims S1024x1024 S1024x384 S1024x384 where
  lhsContracting := [1]
  rhsContracting := [0]
  lhsNonContracting := [0]
  rhsNonContracting := [1]
  lhsBatch := []
  rhsBatch := []
  wf := dot_S1024x1024_S1024x384_S1024x384_1_0_0_1_n_n_wf
def dot_S8x8x16x4096_S8x8x16x4096_S8x8x16x16_3_3_2_2_01_01 : DotDims S8x8x16x4096 S8x8x16x4096 S8x8x16x16 where
  lhsContracting := [3]
  rhsContracting := [3]
  lhsNonContracting := [2]
  rhsNonContracting := [2]
  lhsBatch := [0, 1]
  rhsBatch := [0, 1]
  wf := dot_S8x8x16x4096_S8x8x16x4096_S8x8x16x16_3_3_2_2_01_01_wf
def dot_S8x8x16x16_S8x8x16x4096_S8x8x16x4096_3_2_2_3_01_01 : DotDims S8x8x16x16 S8x8x16x4096 S8x8x16x4096 where
  lhsContracting := [3]
  rhsContracting := [2]
  lhsNonContracting := [2]
  rhsNonContracting := [3]
  lhsBatch := [0, 1]
  rhsBatch := [0, 1]
  wf := dot_S8x8x16x16_S8x8x16x4096_S8x8x16x4096_3_2_2_3_01_01_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v46) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S128x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S1024 : Shape := ⟨1, ![1024]⟩
abbrev S384x1024 : Shape := ⟨2, ![384, 1024]⟩
abbrev S8x1x1 : Shape := ⟨3, ![8, 1, 1]⟩
abbrev S1024x128 : Shape := ⟨2, ![1024, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x384 : Shape := ⟨3, ![8, 4096, 384]⟩
abbrev S8x4096x3x8x16 : Shape := ⟨5, ![8, 4096, 3, 8, 16]⟩
abbrev S3x8x8x16x4096 : Shape := ⟨5, ![3, 8, 8, 16, 4096]⟩
abbrev S1x8x8x16x4096 : Shape := ⟨5, ![1, 8, 8, 16, 4096]⟩
abbrev S8x8x16x4096 : Shape := ⟨4, ![8, 8, 16, 4096]⟩
abbrev S8x8x16 : Shape := ⟨3, ![8, 8, 16]⟩
abbrev S8x8x16x1 : Shape := ⟨4, ![8, 8, 16, 1]⟩
abbrev S1x8x1x1 : Shape := ⟨4, ![1, 8, 1, 1]⟩
abbrev S8x8x16x16 : Shape := ⟨4, ![8, 8, 16, 16]⟩
abbrev S8x4096x8x16 : Shape := ⟨4, ![8, 4096, 8, 16]⟩
abbrev S8x4096x128 : Shape := ⟨3, ![8, 4096, 128]⟩

abbrev nBuf : Space → Nat
  | .hbm => 73
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S384x1024, .f32⟩
  | .hbm, ⟨3, _⟩ => ⟨S8x1x1, .f32⟩
  | .hbm, ⟨4, _⟩ => ⟨S1024x128, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x384, .f32⟩
  | .hbm, ⟨22, _⟩ => ⟨S8x4096x3x8x16, .f32⟩
  | .hbm, ⟨23, _⟩ => ⟨S3x8x8x16x4096, .f32⟩
  | .hbm, ⟨24, _⟩ => ⟨S1x8x8x16x4096, .f32⟩
  | .hbm, ⟨25, _⟩ => ⟨S8x8x16x4096, .f32⟩
  | .hbm, ⟨26, _⟩ => ⟨S1x8x8x16x4096, .f32⟩
  | .hbm, ⟨27, _⟩ => ⟨S8x8x16x4096, .f32⟩
  | .hbm, ⟨28, _⟩ => ⟨S1x8x8x16x4096, .f32⟩
  | .hbm, ⟨29, _⟩ => ⟨S8x8x16x4096, .f32⟩
  | .hbm, ⟨30, _⟩ => ⟨S8x8x16x4096, .f32⟩
  | .hbm, ⟨31, _⟩ => ⟨S_, .f32⟩
  | .hbm, ⟨32, _⟩ => ⟨S8x8x16, .f32⟩
  | .hbm, ⟨33, _⟩ => ⟨S8x8x16x1, .f32⟩
  | .hbm, ⟨34, _⟩ => ⟨S8x8x16x1, .f32⟩
  | .hbm, ⟨35, _⟩ => ⟨S_, .f32⟩
  | .hbm, ⟨36, _⟩ => ⟨S8x8x16x1, .f32⟩
  | .hbm, ⟨37, _⟩ => ⟨S8x8x16x1, .f32⟩
  | .hbm, ⟨38, _⟩ => ⟨S8x8x16x4096, .f32⟩
  | .hbm, ⟨39, _⟩ => ⟨S8x8x16x4096, .f32⟩
  | .hbm, ⟨40, _⟩ => ⟨S8x8x16x4096, .f32⟩
  | .hbm, ⟨41, _⟩ => ⟨S_, .f32⟩
  | .hbm, ⟨42, _⟩ => ⟨S8x8x16, .f32⟩
  | .hbm, ⟨43, _⟩ => ⟨S8x8x16x1, .f32⟩
  | .hbm, ⟨44, _⟩ => ⟨S8x8x16x1, .f32⟩
  | .hbm, ⟨45, _⟩ => ⟨S_, .f32⟩
  | .hbm, ⟨46, _⟩ => ⟨S8x8x16x1, .f32⟩
  | .hbm, ⟨47, _⟩ => ⟨S8x8x16x1, .f32⟩
  | .hbm, ⟨48, _⟩ => ⟨S8x8x16x4096, .f32⟩
  | .hbm, ⟨49, _⟩ => ⟨S8x8x16x4096, .f32⟩
  | .hbm, ⟨50, _⟩ => ⟨S8x1x1, .f32⟩
  | .hbm, ⟨51, _⟩ => ⟨S1x8x1x1, .f32⟩
  | .hbm, ⟨52, _⟩ => ⟨S8x8x16x4096, .f32⟩
  | .hbm, ⟨53, _⟩ => ⟨S8x8x16x4096, .f32⟩
  | .hbm, ⟨54, _⟩ => ⟨S8x8x16x16, .f32⟩
  | .hbm, ⟨55, _⟩ => ⟨S_, .f32⟩
  | .hbm, ⟨56, _⟩ => ⟨S8x8x16, .f32⟩
  | .hbm, ⟨57, _⟩ => ⟨S_, .f32⟩
  | .hbm, ⟨58, _⟩ => ⟨S8x8x16, .f32⟩
  | .hbm, ⟨59, _⟩ => ⟨S8x8x16, .f32⟩
  | .hbm, ⟨60, _⟩ => ⟨S8x8x16x1, .f32⟩
  | .hbm, ⟨61, _⟩ => ⟨S8x8x16x16, .f32⟩
  | .hbm, ⟨62, _⟩ => ⟨S8x8x16x16, .f32⟩
  | .hbm, ⟨63, _⟩ => ⟨S8x8x16x16, .f32⟩
  | .hbm, ⟨64, _⟩ => ⟨S_, .f32⟩
  | .hbm, ⟨65, _⟩ => ⟨S8x8x16, .f32⟩
  | .hbm, ⟨66, _⟩ => ⟨S8x8x16x1, .f32⟩
  | .hbm, ⟨67, _⟩ => ⟨S8x8x16x16, .f32⟩
  | .hbm, ⟨68, _⟩ => ⟨S8x8x16x16, .f32⟩
  | .hbm, ⟨69, _⟩ => ⟨S8x8x16x4096, .f32⟩
  | .hbm, ⟨70, _⟩ => ⟨S8x4096x8x16, .f32⟩
  | .hbm, ⟨71, _⟩ => ⟨S8x4096x128, .f32⟩
  | .hbm, ⟨72, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_cst_7 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_8 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]

class Facts₀ : Prop where
  reducesTo_S8x4096x1024_S8x4096_d2 : S8x4096x1024.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x1024_0_1_2 : S8x4096x1.BroadcastsInDim S8x4096x1024 (![0, 1, 2] : Fin 3 → Fin S8x4096x1024.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  shapeCasts_S8x4096x384_S8x4096x3x8x16 : S8x4096x384.ShapeCasts S8x4096x3x8x16
  transposes_S8x4096x3x8x16_S3x8x8x16x4096_2_0_3_4_1 : S8x4096x3x8x16.Transposes [2, 0, 3, 4, 1] S3x8x8x16x4096
  slices_S3x8x8x16x4096_S1x8x8x16x4096_0_0_0_0_0 : S3x8x8x16x4096.Slices ![0, 0, 0, 0, 0] S1x8x8x16x4096
  shapeCasts_S1x8x8x16x4096_S8x8x16x4096 : S1x8x8x16x4096.ShapeCasts S8x8x16x4096
  slices_S3x8x8x16x4096_S1x8x8x16x4096_1_0_0_0_0 : S3x8x8x16x4096.Slices ![1, 0, 0, 0, 0] S1x8x8x16x4096
  slices_S3x8x8x16x4096_S1x8x8x16x4096_2_0_0_0_0 : S3x8x8x16x4096.Slices ![2, 0, 0, 0, 0] S1x8x8x16x4096
  reducesTo_S8x8x16x4096_S8x8x16_d3 : S8x8x16x4096.ReducesTo [3] S8x8x16
  bcast_S8x8x16_S8x8x16x1_0_1_2 : S8x8x16.BroadcastsInDim S8x8x16x1 (![0, 1, 2] : Fin 3 → Fin S8x8x16x1.rank)
  bcast_S_S8x8x16x1 : S_.BroadcastsInDim S8x8x16x1 (![] : Fin 0 → Fin S8x8x16x1.rank)
  bcast_S8x8x16x1_S8x8x16x4096_0_1_2_3 : S8x8x16x1.BroadcastsInDim S8x8x16x4096 (![0, 1, 2, 3] : Fin 4 → Fin S8x8x16x4096.rank)
  bcast_S8x1x1_S1x8x1x1_1_2_3 : S8x1x1.BroadcastsInDim S1x8x1x1 (![1, 2, 3] : Fin 3 → Fin S1x8x1x1.rank)
  bcast_S1x8x1x1_S8x8x16x4096_0_1_2_3 : S1x8x1x1.BroadcastsInDim S8x8x16x4096 (![0, 1, 2, 3] : Fin 4 → Fin S8x8x16x4096.rank)
  reducesTo_S8x8x16x16_S8x8x16_d3 : S8x8x16x16.ReducesTo [3] S8x8x16
  bcast_S_S8x8x16 : S_.BroadcastsInDim S8x8x16 (![] : Fin 0 → Fin S8x8x16.rank)
  bcast_S8x8x16x1_S8x8x16x16_0_1_2_3 : S8x8x16x1.BroadcastsInDim S8x8x16x16 (![0, 1, 2, 3] : Fin 4 → Fin S8x8x16x16.rank)
  transposes_S8x8x16x4096_S8x4096x8x16_0_3_1_2 : S8x8x16x4096.Transposes [0, 3, 1, 2] S8x4096x8x16
  shapeCasts_S8x4096x8x16_S8x4096x128 : S8x4096x8x16.ShapeCasts S8x4096x128
  dot_S8x4096x1024_S384x1024_S8x4096x384_2_1_01_0_n_n_wf : DotDims.WF S8x4096x1024 S384x1024 S8x4096x384 [2] [1] [0, 1] [0] [] []
  dot_S8x8x16x4096_S8x8x16x4096_S8x8x16x16_3_3_2_2_01_01_wf : DotDims.WF S8x8x16x4096 S8x8x16x4096 S8x8x16x16 [3] [3] [2] [2] [0, 1] [0, 1]
  dot_S8x8x16x16_S8x8x16x4096_S8x8x16x4096_3_2_2_3_01_01_wf : DotDims.WF S8x8x16x16 S8x8x16x4096 S8x8x16x4096 [3] [2] [2] [3] [0, 1] [0, 1]
  dot_S8x4096x128_S1024x128_S8x4096x1024_2_1_01_0_n_n_wf : DotDims.WF S8x4096x128 S1024x128 S8x4096x1024 [2] [1] [0, 1] [0] [] []

variable [Facts₀]

def dot_S8x4096x1024_S384x1024_S8x4096x384_2_1_01_0_n_n : DotDims S8x4096x1024 S384x1024 S8x4096x384 where
  lhsContracting := [2]
  rhsContracting := [1]
  lhsNonContracting := [0, 1]
  rhsNonContracting := [0]
  lhsBatch := []
  rhsBatch := []
  wf := dot_S8x4096x1024_S384x1024_S8x4096x384_2_1_01_0_n_n_wf
def dot_S8x8x16x4096_S8x8x16x4096_S8x8x16x16_3_3_2_2_01_01 : DotDims S8x8x16x4096 S8x8x16x4096 S8x8x16x16 where
  lhsContracting := [3]
  rhsContracting := [3]
  lhsNonContracting := [2]
  rhsNonContracting := [2]
  lhsBatch := [0, 1]
  rhsBatch := [0, 1]
  wf := dot_S8x8x16x4096_S8x8x16x4096_S8x8x16x16_3_3_2_2_01_01_wf
def dot_S8x8x16x16_S8x8x16x4096_S8x8x16x4096_3_2_2_3_01_01 : DotDims S8x8x16x16 S8x8x16x4096 S8x8x16x4096 where
  lhsContracting := [3]
  rhsContracting := [2]
  lhsNonContracting := [2]
  rhsNonContracting := [3]
  lhsBatch := [0, 1]
  rhsBatch := [0, 1]
  wf := dot_S8x8x16x16_S8x8x16x4096_S8x8x16x4096_3_2_2_3_01_01_wf
def dot_S8x4096x128_S1024x128_S8x4096x1024_2_1_01_0_n_n : DotDims S8x4096x128 S1024x128 S8x4096x1024 where
  lhsContracting := [2]
  rhsContracting := [1]
  lhsNonContracting := [0, 1]
  rhsNonContracting := [0]
  lhsBatch := []
  rhsBatch := []
  wf := dot_S8x4096x128_S1024x128_S8x4096x1024_2_1_01_0_n_n_wf

class Facts : Prop extends Facts₀ where

variable [Facts]
-- ==== Proof.Spec.lean ====
/-
  The mathematics of the two tiled kernels, stated once over whole arrays and plain extended reals.

  The first kernel normalises every row of a 32768 × 1024 matrix by the inverse square root of the mean of the
  row's squares plus a small constant, scales column `k` by a gain `g k`, and multiplies the result by a
  1024 × 384 matrix; the second kernel multiplies a 32768 × 128 matrix by a 128 × 1024 matrix. Both are read here
  entry by entry as finite sums over the contracted axis. A change of float format is the identity on extended
  reals, so the rounding of the factors to sixteen bits before each product leaves no trace.
-/
import Idealize.ShloMosaic.PureOps.Ideal
import Idealize.ShloMosaic.Lib.ValueIdx

noncomputable section

open scoped BigOperators

namespace Cert.Xca

open Idealize.ShloMosaic Idealize.ShloMosaic.ValueIdx

/-- The factor row `r` of `x` is scaled by: one over the square root of (the sum of the row's squares divided by
    1024, plus the constant whose single-precision word is `0x358637BD`). The divisor's word `0x44800000` is 1024. -/
def rowInv (x : (⟨2, ![32768, 1024]⟩ : Shape).Idx → EReal) (r : Fin 32768) : EReal :=
  Ideal.rsqrt (Ideal.div (∑ c : Fin 1024, x (ix2 r c) * x (ix2 r c)) (Ideal.ofBits .f32 0x44800000#32)
    + Ideal.ofBits .f32 0x358637BD#32)

/-- Entry `(r, o)` of the first product: the sum over `k` of the normalised, gain-scaled entry `(r, k)` of `x`
    times entry `(k, o)` of `wt`. -/
def qkvAt (x : (⟨2, ![32768, 1024]⟩ : Shape).Idx → EReal) (g : (⟨1, ![1024]⟩ : Shape).Idx → EReal)
    (wt : (⟨2, ![1024, 384]⟩ : Shape).Idx → EReal) (r : Fin 32768) (o : Fin 384) : EReal :=
  ∑ k : Fin 1024, x (ix2 r k) * rowInv x r * g (ix1 k) * wt (ix2 k o)

/-- The first product as a whole 32768 × 384 array. -/
def qkvRows (x : (⟨2, ![32768, 1024]⟩ : Shape).Idx → EReal) (g : (⟨1, ![1024]⟩ : Shape).Idx → EReal)
    (wt : (⟨2, ![1024, 384]⟩ : Shape).Idx → EReal) : (⟨2, ![32768, 384]⟩ : Shape).Idx → EReal :=
  fun i => qkvAt x g wt ⟨(i 0).val, idx2_lt0 i⟩ ⟨(i 1).val, idx2_lt1 i⟩

theorem qkvRows_ix2 (x : (⟨2, ![32768, 1024]⟩ : Shape).Idx → EReal) (g : (⟨1, ![1024]⟩ : Shape).Idx → EReal)
    (wt : (⟨2, ![1024, 384]⟩ : Shape).Idx → EReal) (r : Fin 32768) (o : Fin 384) :
    qkvRows x g wt (ix2 r o) = qkvAt x g wt r o := rfl

/-- Entry `(r, j)` of the second product: the sum over `k` of entry `(r, k)` of `a` times entry `(k, j)` of `wt`. -/
def projAt (a : (⟨2, ![32768, 128]⟩ : Shape).Idx → EReal) (wt : (⟨2, ![128, 1024]⟩ : Shape).Idx → EReal)
    (r : Fin 32768) (j : Fin 1024) : EReal :=
  ∑ k : Fin 128, a (ix2 r k) * wt (ix2 k j)

/-- The second product as a whole 32768 × 1024 array. -/
def projRows (a : (⟨2, ![32768, 128]⟩ : Shape).Idx → EReal) (wt : (⟨2, ![128, 1024]⟩ : Shape).Idx → EReal) :
    (⟨2, ![32768, 1024]⟩ : Shape).Idx → EReal :=
  fun i => projAt a wt ⟨(i 0).val, idx2_lt0 i⟩ ⟨(i 1).val, idx2_lt1 i⟩

theorem projRows_ix2 (a : (⟨2, ![32768, 128]⟩ : Shape).Idx → EReal) (wt : (⟨2, ![128, 1024]⟩ : Shape).Idx → EReal)
    (r : Fin 32768) (j : Fin 1024) : projRows a wt (ix2 r j) = projAt a wt r j := rfl

end Cert.Xca

end
-- ==== Proof.ResultRun.lean ====
/-
  The idealized kernel program's run with its RESULT named. The program is two tiled matrix-product regions among
  three stretches of host operations. Every weakly fair execution terminates without a fault, and in the final state
  the result buffer holds what the fold of the five segments over the launch memory leaves there (`Gen.W5`: each
  host stretch applies its operations' functions, each region leaves its arrays at what its write-backs fold to),
  while the five argument arrays are as launched. The statement is the frame's with one more buffer read off the
  last thread state: the last segment hands back every unscoped buffer at the fold's contents, and the result buffer
  is one of them.
-/
import proofs.«128739_j25451976196875_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting; the
    result buffer ends at the fold's contents and the arguments as launched. -/
theorem run_result : θ_run defs (onTc (τ := τ) (main (F := F))) ⟨m, fun _ => 0, ρ⟩ (fun r => ∀ c : Dev nD,
      r.2.mem ((c.tc : Thread nD τ).loc main_v49) = W5 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v49 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.ResultRun

end
-- ==== Proof.Mid.lean ====
/-
  The part of the computation that both programs carry out with the same host operations, as ONE function.

  Its input `q` is the first product viewed as an [8, 4096, 3, 8, 16] array (batch, token, which of the three
  components, head, channel) and `t` a per-head temperature [8, 1, 1]. The three components are moved to
  [8, 8, 16, 4096] (batch, head, channel, token). The first two are divided, channel by channel, by the larger of
  the Euclidean norm of their 4096 tokens and a small constant; the first is also multiplied by the exponential of
  its head's temperature. Their products summed over the tokens give, per batch and head, a 16 × 16 matrix of
  logits; each row of it is passed through the softmax (shift by the row's maximum, exponentiate, divide by the row's
  sum); the result times the third component, summed over the second channel index, is moved back to
  [8, 4096, 128] (batch, token, head·16 + channel).

  The two contractions carry a precision tag in one program and none in the other. On extended reals a contraction
  is the plain sum of products whatever the tag (`contract_tag`), so the function does not depend on it (`mid_tag`).
-/
import proofs.«128739_j25451976196875_1_alg».proof.Proof.Gen.KernelIdeal
import Idealize.ShloMosaic.PureOps.Ideal.Laws

noncomputable section

namespace Cert.KernelIdeal.Mid

open Cert.KernelIdeal Cert.KernelIdeal.Gen Idealize.ShloMosaic

variable {F : FTy → Type} [FloatOps F]

/-- Component `0` of the three, as [8, 8, 16, 4096]. -/
def comp0 (q : (⟨S8x4096x3x8x16, .f32⟩ : BufTy).Contents (Elt F)) : (⟨S8x8x16x4096, .f32⟩ : BufTy).Contents (Elt F) :=
  shapeCast S8x8x16x4096 (extractStridedSlice S1x8x8x16x4096 ![0, 0, 0, 0, 0]
    (transpose S3x8x8x16x4096 [2, 0, 3, 4, 1] q transposes_S8x4096x3x8x16_S3x8x8x16x4096_2_0_3_4_1)
    slices_S3x8x8x16x4096_S1x8x8x16x4096_0_0_0_0_0) shapeCasts_S1x8x8x16x4096_S8x8x16x4096
/-- Component `1`. -/
def comp1 (q : (⟨S8x4096x3x8x16, .f32⟩ : BufTy).Contents (Elt F)) : (⟨S8x8x16x4096, .f32⟩ : BufTy).Contents (Elt F) :=
  shapeCast S8x8x16x4096 (extractStridedSlice S1x8x8x16x4096 ![1, 0, 0, 0, 0]
    (transpose S3x8x8x16x4096 [2, 0, 3, 4, 1] q transposes_S8x4096x3x8x16_S3x8x8x16x4096_2_0_3_4_1)
    slices_S3x8x8x16x4096_S1x8x8x16x4096_1_0_0_0_0) shapeCasts_S1x8x8x16x4096_S8x8x16x4096
/-- Component `2`. -/
def comp2 (q : (⟨S8x4096x3x8x16, .f32⟩ : BufTy).Contents (Elt F)) : (⟨S8x8x16x4096, .f32⟩ : BufTy).Contents (Elt F) :=
  shapeCast S8x8x16x4096 (extractStridedSlice S1x8x8x16x4096 ![2, 0, 0, 0, 0]
    (transpose S3x8x8x16x4096 [2, 0, 3, 4, 1] q transposes_S8x4096x3x8x16_S3x8x8x16x4096_2_0_3_4_1)
    slices_S3x8x8x16x4096_S1x8x8x16x4096_2_0_0_0_0) shapeCasts_S1x8x8x16x4096_S8x8x16x4096

/-- Each (batch, head, channel) row of 4096 tokens divided by the larger of its Euclidean norm and the constant whose
    single-precision word is `0x2B8CBCCC`. -/
def unitRows (u : (⟨S8x8x16x4096, .f32⟩ : BufTy).Contents (Elt F)) : (⟨S8x8x16x4096, .f32⟩ : BufTy).Contents (Elt F) :=
  Host.divf u (broadcastInDim S8x8x16x4096 ![0, 1, 2, 3] bcast_S8x8x16x1_S8x8x16x4096_0_1_2_3
    (maximumf (Host.sqrt (broadcastInDim S8x8x16x1 ![0, 1, 2] bcast_S8x8x16_S8x8x16x1_0_1_2
        (Host.reduceAdd (mulf u u) (constant S_ .f32 0x00000000#32) reducesTo_S8x8x16x4096_S8x8x16_d3 h_S_)))
      (broadcastInDim S8x8x16x1 ![] bcast_S_S8x8x16x1 (constant S_ .f32 0x2B8CBCCC#32))))

/-- The exponential of each head's temperature, spread over [8, 8, 16, 4096]. -/
def headScale (t : (⟨S8x1x1, .f32⟩ : BufTy).Contents (Elt F)) : (⟨S8x8x16x4096, .f32⟩ : BufTy).Contents (Elt F) :=
  broadcastInDim S8x8x16x4096 ![0, 1, 2, 3] bcast_S1x8x1x1_S8x8x16x4096_0_1_2_3
    (broadcastInDim S1x8x1x1 ![1, 2, 3] bcast_S8x1x1_S1x8x1x1_1_2_3 (Host.exp t))

/-- The exponentials of a 16 × 16 logit matrix's entries shifted by their row's maximum. -/
def shiftedExp (s : (⟨S8x8x16x16, .f32⟩ : BufTy).Contents (Elt F)) : (⟨S8x8x16x16, .f32⟩ : BufTy).Contents (Elt F) :=
  Host.exp (subf s (broadcastInDim S8x8x16x16 ![0, 1, 2, 3] bcast_S8x8x16x1_S8x8x16x16_0_1_2_3
    (broadcastInDim S8x8x16x1 ![0, 1, 2] bcast_S8x8x16_S8x8x16x1_0_1_2
      (maximumf (broadcastInDim S8x8x16 ![] bcast_S_S8x8x16 (constant S_ .f32 0xFF800000#32))
        (Host.reduce FloatOps.maximumf s (constant S_ .f32 0xFF800000#32) reducesTo_S8x8x16x16_S8x8x16_d3 h_S_)))))

/-- The softmax of each row of the logit matrices. -/
def rowSoftmax (s : (⟨S8x8x16x16, .f32⟩ : BufTy).Contents (Elt F)) : (⟨S8x8x16x16, .f32⟩ : BufTy).Contents (Elt F) :=
  Host.divf (shiftedExp s) (broadcastInDim S8x8x16x16 ![0, 1, 2, 3] bcast_S8x8x16x1_S8x8x16x16_0_1_2_3
    (broadcastInDim S8x8x16x1 ![0, 1, 2] bcast_S8x8x16_S8x8x16x1_0_1_2
      (Host.reduceAdd (shiftedExp s) (constant S_ .f32 0x00000000#32) reducesTo_S8x8x16x16_S8x8x16_d3 h_S_)))

/-- The whole middle function, with the two contractions' precision tag `p`. -/
def mid (p : Option ContractPrecision) (q : (⟨S8x4096x3x8x16, .f32⟩ : BufTy).Contents (Elt F))
    (t : (⟨S8x1x1, .f32⟩ : BufTy).Contents (Elt F)) : (⟨S8x4096x128, .f32⟩ : BufTy).Contents (Elt F) :=
  shapeCast S8x4096x128 (transpose S8x4096x8x16 [0, 3, 1, 2]
    (Host.dotGeneral dot_S8x8x16x16_S8x8x16x4096_S8x8x16x4096_3_2_2_3_01_01 p
      (rowSoftmax (Host.dotGeneral dot_S8x8x16x4096_S8x8x16x4096_S8x8x16x16_3_3_2_2_01_01 p
        (mulf (unitRows (comp0 q)) (headScale t)) (unitRows (comp1 q))))
      (comp2 q))
    transposes_S8x8x16x4096_S8x4096x8x16_0_3_1_2) shapeCasts_S8x4096x8x16_S8x4096x128

/-- On extended reals a host contraction is the sum of the operands' products over the contracted index, whatever its
    precision tag. -/
theorem contract_tag {sl sr so : Shape} {φ₁ φ₂ : FTy} (d : DotDims sl sr so) (p : Option ContractPrecision)
    (l : FVec Ideal sl φ₁) (r : FVec Ideal sr φ₂) :
    Host.dotGeneral (F := Ideal) d p l r = Host.dotGeneral (F := Ideal) d none l r := by
  funext j
  simp only [Host.dotGeneral]
  rw [Ideal.dotGeneral_apply, Ideal.dotGeneral_apply]

/-- So the middle function does not depend on the tag. -/
theorem mid_tag (p : Option ContractPrecision) (q : (⟨S8x4096x3x8x16, .f32⟩ : BufTy).Contents (Elt Ideal))
    (t : (⟨S8x1x1, .f32⟩ : BufTy).Contents (Elt Ideal)) : mid (F := Ideal) p q t = mid (F := Ideal) none q t := by
  unfold mid
  rw [contract_tag _ p (mulf (unitRows (comp0 q)) (headScale t)) (unitRows (comp1 q)), contract_tag _ p _ (comp2 q)]

end Cert.KernelIdeal.Mid

end
-- ==== Proof.Fold.lean ====
/-
  The fold of the program's five segments read at the buffers the result depends on.

  Before the first region the host reshapes the input to 32768 rows and transposes the first weight matrix; the gain
  vector is an argument, untouched. Between the regions the host applies the middle function to the first region's
  output array (viewed as [8, 4096, 3, 8, 16]) and the temperature, flattens the result to 32768 rows, and transposes
  the second weight matrix. After the second region the host reshapes its output array to [8, 4096, 1024]: that is
  the result. Each region's output array is what its grid points' write-backs fold to.
-/
import proofs.«128739_j25451976196875_1_alg».proof.Proof.Gen.KernelIdeal.Frame
import proofs.«128739_j25451976196875_1_alg».proof.Proof.Mid
import Idealize.ShloMosaic.Lib.StableHlo.Run

set_option maxRecDepth 16384

noncomputable section

namespace Cert.KernelIdeal.Fold

open Cert.KernelIdeal Cert.KernelIdeal.Gen Cert.KernelIdeal.Mid
open Idealize.ShloMosaic Idealize.ShloMosaic.TcCoe Idealize.ShloMosaic.StableHlo Idealize.SL.Sem
open Idealize.ShloMosaic.Pipeline (Dat)

variable {F : FTy → Type} [FloatOps F]
variable (m : (ℓ : Loc nD τ sig) → Buf (Elt F) ℓ) (ρ : Dev nD → PrngReg)

/-! ## The first stretch: the flattened input, the gain, the transposed first weight -/

theorem entry0_x (c : Dev nD) : V1 m ρ c main_v0
    = shapeCast S32768x1024 (m ((c : Thread nD τ).loc main_arg0)) shapeCasts_S8x4096x1024_S32768x1024 := by
  show StableHlo.after hostOps0 (W0 m ρ c) (Proc.devRef .tc main_v0) = _
  after_results <;> rfl

theorem entry0_w (c : Dev nD) : V1 m ρ c main_v1
    = transpose S1024x384 [1, 0] (m ((c : Thread nD τ).loc main_arg2)) transposes_S384x1024_S1024x384_1_0 := by
  show StableHlo.after hostOps0 (W0 m ρ c) (Proc.devRef .tc main_v1) = _
  after_results <;> rfl

theorem entry0_g (c : Dev nD) : V1 m ρ c main_arg1 = m ((c : Thread nD τ).loc main_arg1) := by
  show StableHlo.after hostOps0 (W0 m ρ c) (Proc.devRef .tc main_arg1) = _
  after_results <;> rfl

/-! ## The first region leaves the temperature and the second weight as launched, and its output array at its fold -/

theorem exit0_t (c : Dev nD) : W2 m ρ c (Proc.devRef .tc main_arg3) = m ((c : Thread nD τ).loc main_arg3) :=
  (W2_of_ne m ρ c main_arg3 (by decide)).trans (by
    show StableHlo.after hostOps0 (W0 m ρ c) (Proc.devRef .tc main_arg3) = _
    after_results <;> rfl)

theorem exit0_w (c : Dev nD) : W2 m ρ c (Proc.devRef .tc main_arg4) = m ((c : Thread nD τ).loc main_arg4) :=
  (W2_of_ne m ρ c main_arg4 (by decide)).trans (by
    show StableHlo.after hostOps0 (W0 m ρ c) (Proc.devRef .tc main_arg4) = _
    after_results <;> rfl)

theorem exit0_out (c : Dev nD) : W2 m ρ c (Proc.devRef .tc main_v2) = (dat0 (V1 m ρ) c).arrAt 3 cfg0.N :=
  W2_arr m ρ c 3

/-! ## The second stretch, from any contents `W` -/

theorem stretch1_a (W : Valuation τ sig (Elt F)) : StableHlo.after hostOps1 W (Proc.devRef .tc main_v46)
    = shapeCast S32768x128 (mid (some .fp32)
        (shapeCast S8x4096x3x8x16 (W (Proc.devRef .tc main_v2)) shapeCasts_S32768x384_S8x4096x3x8x16)
        (W (Proc.devRef .tc main_arg3))) shapeCasts_S8x4096x128_S32768x128 := by
  after_results_simp <;> rfl

theorem stretch1_w (W : Valuation τ sig (Elt F)) : StableHlo.after hostOps1 W (Proc.devRef .tc main_v47)
    = transpose S128x1024 [1, 0] (W (Proc.devRef .tc main_arg4)) transposes_S1024x128_S128x1024_1_0 := by
  after_results_simp <;> rfl

theorem entry1_a (c : Dev nD) : V3 m ρ c main_v46
    = shapeCast S32768x128 (mid (some .fp32)
        (shapeCast S8x4096x3x8x16 ((dat0 (V1 m ρ) c).arrAt 3 cfg0.N) shapeCasts_S32768x384_S8x4096x3x8x16)
        (m ((c : Thread nD τ).loc main_arg3))) shapeCasts_S8x4096x128_S32768x128 := by
  show StableHlo.after hostOps1 (W2 m ρ c) (Proc.devRef .tc main_v46) = _
  rw [stretch1_a, exit0_out, exit0_t]

theorem entry1_w (c : Dev nD) : V3 m ρ c main_v47
    = transpose S128x1024 [1, 0] (m ((c : Thread nD τ).loc main_arg4)) transposes_S1024x128_S128x1024_1_0 := by
  show StableHlo.after hostOps1 (W2 m ρ c) (Proc.devRef .tc main_v47) = _
  rw [stretch1_w, exit0_w]

/-! ## The last stretch: the result is the second region's output array, reshaped -/

theorem result_fold (c : Dev nD) : W5 m ρ c (Proc.devRef .tc main_v49)
    = shapeCast S8x4096x1024 ((dat1 (V3 m ρ) c).arrAt 2 cfg1.N) shapeCasts_S32768x1024_S8x4096x1024 := by
  show StableHlo.after hostOps2 (W4 m ρ c) (Proc.devRef .tc main_v49) = _
  after_results
  rw [show W4 m ρ c (Proc.devRef .tc main_v48) = (dat1 (V3 m ρ) c).arrAt 2 cfg1.N from W4_arr m ρ c 2]
  rfl

end Cert.KernelIdeal.Fold

end
-- ==== Proof.RefMid.lean ====
/-
  The reference's stages between its first contraction (viewed as [8, 4096, 3, 8, 16]) and its last contraction are
  the middle function of that array and the temperature: the two programs spell the same host operations, in the
  same order, on the same shapes.
-/
import proofs.«128739_j25451976196875_1_alg».proof.Proof.Gen.ReferenceIdeal.Read
import proofs.«128739_j25451976196875_1_alg».proof.Proof.Mid

noncomputable section

namespace Cert.ReferenceIdeal.MidStages

open Cert.ReferenceIdeal Cert.ReferenceIdeal.Gen Idealize.ShloMosaic

variable {F : FTy → Type} [FloatOps F]

/-- The operand of the reference's last contraction is the middle function (with no precision tag) of its first
    contraction's reshaped result and the temperature. -/
theorem stage56_eq_mid (x0 : (⟨S8x4096x1024, .f32⟩ : BufTy).Contents (Elt F)) (x1 : (⟨S1024, .f32⟩ : BufTy).Contents (Elt F))
    (x2 : (⟨S384x1024, .f32⟩ : BufTy).Contents (Elt F)) (x3 : (⟨S8x1x1, .f32⟩ : BufTy).Contents (Elt F)) :
    Read.val_main_v56 (F := F) x0 x1 x2 x3
      = Cert.KernelIdeal.Mid.mid (F := F) none (Read.val_main_v14 (F := F) x0 x1 x2) x3 := by
  rfl

end Cert.ReferenceIdeal.MidStages

end
-- ==== Proof.RefBridge.lean ====
/-
  The reference's two contractions, read entry by entry against the specification.

  The reference keeps its arrays with the batch and position axes apart (8 × 4096 × ·) and its two weight matrices
  with the contracted axis last; the specification works on the flattened arrays (row b·4096+n) and on the
  transposed weights. Entry by entry the two agree: a reshape reads the operand at the same row-major position, a
  transpose swaps the two coordinates, and the contraction over the last axis of both operands is the same finite sum.
-/
import proofs.«128739_j25451976196875_1_alg».proof.Proof.Gen.ReferenceIdeal.Read
import proofs.«128739_j25451976196875_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.Bridge
open Cert.ReferenceIdeal Cert.ReferenceIdeal.Gen Idealize.ShloMosaic Idealize.ShloMosaic.TcCoe Idealize.ShloMosaic.ValueIdx

/-! ## The first product -/

/-- Row b·4096+n, column k of the flattened input is entry (b, n, k) of the input. -/
theorem flat_x0 (x0 : (⟨S8x4096x1024, .f32⟩ : BufTy).Contents (Elt Ideal))
    (h1 : S8x4096x1024.ShapeCasts (⟨2, ![32768, 1024]⟩ : Shape)) (b : Fin 8) (n : Fin 4096) (k : Fin 1024)
    (hr : b.val * 4096 + n.val < 32768) :
    shapeCast (⟨2, ![32768, 1024]⟩ : Shape) x0 h1 (ix2 ⟨b.val * 4096 + n.val, hr⟩ k) = x0 (ix3 b n k) :=
  shapeCast_apply x0 h1 (ix2 ⟨b.val * 4096 + n.val, hr⟩ k) (ix3 b n k)
    (by rw [Shape.rowMajor_val_three, Shape.rowMajor_val_two]; rfl)

/-- Entry (k, o) of the transposed weight is entry (o, k) of the weight. -/
theorem tr_x2 (x2 : (⟨S384x1024, .f32⟩ : BufTy).Contents (Elt Ideal))
    (h2 : S384x1024.Transposes [1, 0] (⟨2, ![1024, 384]⟩ : Shape)) (k : Fin 1024) (o : Fin 384) :
    transpose (⟨2, ![1024, 384]⟩ : Shape) [1, 0] x2 h2 (ix2 k o) = x2 (ix2 o k) :=
  transpose_apply [1, 0] x2 h2 (ix2 k o) (ix2 o k) (fun b => match b with
    | ⟨0, _⟩ => rfl
    | ⟨1, _⟩ => rfl)

/-- The reference's sum of the squares of row (b, n); its initial value is zero and drops out. -/
theorem sumsq_eq (x0 : (⟨S8x4096x1024, .f32⟩ : BufTy).Contents (Elt Ideal)) (b : Fin 8) (n : Fin 4096) :
    Read.val_main_v1 (F := Ideal) x0 (ix2 b n) = ∑ c : Fin 1024, x0 (ix3 b n c) * x0 (ix3 b n c) := by
  rw [Read.val_main_v1_apply, Read.val_main_cst_apply, Ideal.ofBits_def, Ideal.ofBits_zero_f32, zero_add]
  refine Finset.sum_congr rfl fun c _ => ?_
  have e : Read.idx_main_v1 (ix2 b n) c = ix3 b n c := funext fun a => Fin.ext (by
    match a with | ⟨0, _⟩ => rfl | ⟨1, _⟩ => rfl | ⟨2, _⟩ => rfl)
  rw [e, Read.val_main_v0_apply, Ideal.mulf_def]

/-- The reference's scaling factor of row (b, n) is the specification's factor of row b·4096+n. -/
theorem rowInv_eq (x0 : (⟨S8x4096x1024, .f32⟩ : BufTy).Contents (Elt Ideal))
    (h1 : S8x4096x1024.ShapeCasts (⟨2, ![32768, 1024]⟩ : Shape)) (b : Fin 8) (n : Fin 4096)
    (hr : b.val * 4096 + n.val < 32768) :
    Read.val_main_v7 (F := Ideal) x0 (ix3 b n (0 : Fin 1))
      = Cert.Xca.rowInv (shapeCast (⟨2, ![32768, 1024]⟩ : Shape) x0 h1) ⟨b.val * 4096 + n.val, hr⟩ := by
  rw [Read.val_main_v7_apply, Read.val_main_v6_apply, Read.val_main_v5_apply, Read.val_main_cst_1_apply,
    Read.val_main_v4_apply, Read.val_main_v3_apply, Read.val_main_cst_0_apply, Read.val_main_v2_apply]
  have e : Read.idx_main_v2 (ix3 b n (0 : Fin 1)) = ix2 b n := funext fun a => Fin.ext (by
    match a with | ⟨0, _⟩ => rfl | ⟨1, _⟩ => rfl)
  rw [e, sumsq_eq]
  unfold Cert.Xca.rowInv
  have hs : (∑ c : Fin 1024, shapeCast (⟨2, ![32768, 1024]⟩ : Shape) x0 h1 (ix2 ⟨b.val * 4096 + n.val, hr⟩ c)
        * shapeCast (⟨2, ![32768, 1024]⟩ : Shape) x0 h1 (ix2 ⟨b.val * 4096 + n.val, hr⟩ c))
      = ∑ c : Fin 1024, x0 (ix3 b n c) * x0 (ix3 b n c) :=
    Finset.sum_congr rfl fun c _ => by rw [flat_x0 x0 h1 b n c hr]
  rw [hs]
  simp only [Ideal.hostUnary_rsqrt_def, Ideal.addf_def, Ideal.hostDivf_def, Ideal.ofBits_def]

/-- The reference's normalised, gain-scaled entry (b, n, k). -/
theorem scaled_eq (x0 : (⟨S8x4096x1024, .f32⟩ : BufTy).Contents (Elt Ideal)) (x1 : (⟨S1024, .f32⟩ : BufTy).Contents (Elt Ideal))
    (h1 : S8x4096x1024.ShapeCasts (⟨2, ![32768, 1024]⟩ : Shape)) (b : Fin 8) (n : Fin 4096) (k : Fin 1024)
    (hr : b.val * 4096 + n.val < 32768) :
    Read.val_main_v12 (F := Ideal) x0 x1 (ix3 b n k)
      = x0 (ix3 b n k) * Cert.Xca.rowInv (shapeCast (⟨2, ![32768, 1024]⟩ : Shape) x0 h1) ⟨b.val * 4096 + n.val, hr⟩ * x1 (ix1 k) := by
  rw [Read.val_main_v12_apply, Read.val_main_v9_apply, Read.val_main_v8_apply, Read.val_main_v11_apply, Read.val_main_v10_apply]
  have e8 : Read.idx_main_v8 (ix3 b n k) = ix3 b n (0 : Fin 1) := funext fun a => Fin.ext (by
    match a with | ⟨0, _⟩ => rfl | ⟨1, _⟩ => rfl | ⟨2, _⟩ => rfl)
  have e11 : Read.idx_main_v10 (Read.idx_main_v11 (ix3 b n k)) = ix1 k := funext fun a => Fin.ext (by
    match a with | ⟨0, _⟩ => rfl)
  rw [e8, e11, rowInv_eq x0 h1 b n hr]
  simp only [Ideal.mulf_def]

/-- rows b·4096+n of the flattened first product are entries (b, n, ·) of the reference's contraction -/
theorem qkv_eq (x0 : (⟨S8x4096x1024, .f32⟩ : BufTy).Contents (Elt Ideal)) (x1 : (⟨S1024, .f32⟩ : BufTy).Contents (Elt Ideal)) (x2 : (⟨S384x1024, .f32⟩ : BufTy).Contents (Elt Ideal))
    (h1 : S8x4096x1024.ShapeCasts (⟨2, ![32768, 1024]⟩ : Shape)) (h2 : S384x1024.Transposes [1, 0] (⟨2, ![1024, 384]⟩ : Shape)) (h3 : (⟨2, ![32768, 384]⟩ : Shape).ShapeCasts S8x4096x3x8x16) :
    shapeCast S8x4096x3x8x16 (Cert.Xca.qkvRows (shapeCast (⟨2, ![32768, 1024]⟩ : Shape) x0 h1) x1 (transpose (⟨2, ![1024, 384]⟩ : Shape) [1, 0] x2 h2)) h3
      = Read.val_main_v14 (F := Ideal) x0 x1 x2 := by
  funext j
  obtain ⟨b, n, s, h, d, rfl⟩ : ∃ (b : Fin 8) (n : Fin 4096) (s : Fin 3) (h : Fin 8) (d : Fin 16), j = ix5 b n s h d :=
    ⟨j 0, j 1, j 2, j 3, j 4, eq_ix5 j⟩
  have hb := b.isLt; have hn := n.isLt; have hs := s.isLt; have hh := h.isLt; have hd := d.isLt
  have hr : b.val * 4096 + n.val < 32768 := by omega
  have ho : (s.val * 8 + h.val) * 16 + d.val < 384 := by omega
  refine (shapeCast_apply _ h3 (ix5 b n s h d) (ix2 ⟨b.val * 4096 + n.val, hr⟩ ⟨(s.val * 8 + h.val) * 16 + d.val, ho⟩) ?_).trans ?_
  · rw [Shape.rowMajor_val_two, Shape.rowMajor_val_five]
    show (b.val * 4096 + n.val) * 384 + ((s.val * 8 + h.val) * 16 + d.val)
      = (((b.val * 4096 + n.val) * 3 + s.val) * 8 + h.val) * 16 + d.val
    omega
  rw [Cert.Xca.qkvRows_ix2, Read.val_main_v14_apply]
  have e14 : Read.idx_main_v14 (ix5 b n s h d) = ix3 b n ⟨(s.val * 8 + h.val) * 16 + d.val, ho⟩ := funext fun a => Fin.ext (by
    match a with
    | ⟨0, _⟩ => show ((((b.val * 4096 + n.val) * 3 + s.val) * 8 + h.val) * 16 + d.val) / 1572864 = b.val; omega
    | ⟨1, _⟩ => show ((((b.val * 4096 + n.val) * 3 + s.val) * 8 + h.val) * 16 + d.val) / 384 % 4096 = n.val; omega
    | ⟨2, _⟩ => show ((((b.val * 4096 + n.val) * 3 + s.val) * 8 + h.val) * 16 + d.val) % 384 = (s.val * 8 + h.val) * 16 + d.val; omega)
  rw [e14, Read.val_main_v13_apply]
  unfold Cert.Xca.qkvAt
  refine Finset.sum_congr rfl fun k _ => ?_
  have el : Read.lidx_main_v13 (ix3 b n (⟨(s.val * 8 + h.val) * 16 + d.val, ho⟩ : Fin 384)) k = ix3 b n k := funext fun a => Fin.ext (by
    match a with | ⟨0, _⟩ => rfl | ⟨1, _⟩ => rfl | ⟨2, _⟩ => rfl)
  have er : Read.ridx_main_v13 (ix3 b n (⟨(s.val * 8 + h.val) * 16 + d.val, ho⟩ : Fin 384)) k = ix2 (⟨(s.val * 8 + h.val) * 16 + d.val, ho⟩ : Fin 384) k := funext fun a => Fin.ext (by
    match a with | ⟨0, _⟩ => rfl | ⟨1, _⟩ => rfl)
  rw [el, er, flat_x0 x0 h1 b n k hr, tr_x2 x2 h2 k ⟨(s.val * 8 + h.val) * 16 + d.val, ho⟩, scaled_eq x0 x1 h1 b n k hr]

/-! ## The second product -/

/-- Row b·4096+n, column k of the flattened left operand is entry (b, n, k) of the operand. -/
theorem flat_a (a : (⟨S8x4096x128, .f32⟩ : BufTy).Contents (Elt Ideal))
    (h1 : S8x4096x128.ShapeCasts (⟨2, ![32768, 128]⟩ : Shape)) (b : Fin 8) (n : Fin 4096) (k : Fin 128)
    (hr : b.val * 4096 + n.val < 32768) :
    shapeCast (⟨2, ![32768, 128]⟩ : Shape) a h1 (ix2 ⟨b.val * 4096 + n.val, hr⟩ k) = a (ix3 b n k) :=
  shapeCast_apply a h1 (ix2 ⟨b.val * 4096 + n.val, hr⟩ k) (ix3 b n k)
    (by rw [Shape.rowMajor_val_three, Shape.rowMajor_val_two]; rfl)

/-- Entry (k, c) of the transposed weight is entry (c, k) of the weight. -/
theorem tr_x4 (x4 : (⟨S1024x128, .f32⟩ : BufTy).Contents (Elt Ideal))
    (h2 : S1024x128.Transposes [1, 0] (⟨2, ![128, 1024]⟩ : Shape)) (k : Fin 128) (c : Fin 1024) :
    transpose (⟨2, ![128, 1024]⟩ : Shape) [1, 0] x4 h2 (ix2 k c) = x4 (ix2 c k) :=
  transpose_apply [1, 0] x4 h2 (ix2 k c) (ix2 c k) (fun b => match b with
    | ⟨0, _⟩ => rfl
    | ⟨1, _⟩ => rfl)

/-- The reference's last contraction at an entry, for any left operand: the sum over the 128 contracted positions. -/
theorem dot_proj_apply (a : (⟨S8x4096x128, .f32⟩ : BufTy).Contents (Elt Ideal))
    (x4 : (⟨S1024x128, .f32⟩ : BufTy).Contents (Elt Ideal)) (i : S8x4096x1024.Idx) :
    Host.dotGeneral (F := Ideal) (φ₁ := .f32) (φ₂ := .f32) dot_S8x4096x128_S1024x128_S8x4096x1024_2_1_01_0_n_n none a x4 i
      = ∑ k : Fin 128, a (Read.lidx_main_v57 i k) * x4 (Read.ridx_main_v57 i k) := by
  simp only [Host.dotGeneral]
  rw [Ideal.dotGeneral_apply, ← Equiv.sum_comp (ValueIdx.contrEquiv1 dot_S8x4096x128_S1024x128_S8x4096x1024_2_1_01_0_n_n 128 rfl rfl).symm]
  refine Finset.sum_congr rfl fun k _ => ?_
  have hk := ValueIdx.contrEquiv1_symm_val dot_S8x4096x128_S1024x128_S8x4096x1024_2_1_01_0_n_n 128 rfl rfl k
  have el : dot_S8x4096x128_S1024x128_S8x4096x1024_2_1_01_0_n_n.lhsIdx i ((ValueIdx.contrEquiv1 dot_S8x4096x128_S1024x128_S8x4096x1024_2_1_01_0_n_n 128 rfl rfl).symm k) = Read.lidx_main_v57 i k := funext fun a => Fin.ext (by
    match a with
    | ⟨0, _⟩ => exact Read.lhs_main_v57_0 _ _
    | ⟨1, _⟩ => exact Read.lhs_main_v57_1 _ _
    | ⟨2, _⟩ => exact (Read.lhs_main_v57_2 _ _).trans hk)
  have er : dot_S8x4096x128_S1024x128_S8x4096x1024_2_1_01_0_n_n.rhsIdx i ((ValueIdx.contrEquiv1 dot_S8x4096x128_S1024x128_S8x4096x1024_2_1_01_0_n_n 128 rfl rfl).symm k) = Read.ridx_main_v57 i k := funext fun a => Fin.ext (by
    match a with
    | ⟨0, _⟩ => exact Read.rhs_main_v57_0 _ _
    | ⟨1, _⟩ => exact (Read.rhs_main_v57_1 _ _).trans hk)
  rw [el, er]

/-- the flattened second product, reshaped back, is the reference's last contraction, for ANY left operand `a` -/
theorem proj_eq (a : (⟨S8x4096x128, .f32⟩ : BufTy).Contents (Elt Ideal)) (x4 : (⟨S1024x128, .f32⟩ : BufTy).Contents (Elt Ideal))
    (h1 : S8x4096x128.ShapeCasts (⟨2, ![32768, 128]⟩ : Shape)) (h2 : S1024x128.Transposes [1, 0] (⟨2, ![128, 1024]⟩ : Shape)) (h3 : (⟨2, ![32768, 1024]⟩ : Shape).ShapeCasts S8x4096x1024) :
    shapeCast S8x4096x1024 (Cert.Xca.projRows (shapeCast (⟨2, ![32768, 128]⟩ : Shape) a h1) (transpose (⟨2, ![128, 1024]⟩ : Shape) [1, 0] x4 h2)) h3
      = Host.dotGeneral (F := Ideal) (φ₁ := .f32) (φ₂ := .f32) dot_S8x4096x128_S1024x128_S8x4096x1024_2_1_01_0_n_n none a x4 := by
  funext j
  obtain ⟨b, n, c, rfl⟩ : ∃ (b : Fin 8) (n : Fin 4096) (c : Fin 1024), j = ix3 b n c := ⟨j 0, j 1, j 2, eq_ix3 j⟩
  have hr : b.val * 4096 + n.val < 32768 := by have := b.isLt; have := n.isLt; omega
  refine (shapeCast_apply _ h3 (ix3 b n c) (ix2 ⟨b.val * 4096 + n.val, hr⟩ c)
    (by rw [Shape.rowMajor_val_two, Shape.rowMajor_val_three]; rfl)).trans ?_
  rw [Cert.Xca.projRows_ix2, dot_proj_apply]
  unfold Cert.Xca.projAt
  refine Finset.sum_congr rfl fun k _ => ?_
  rw [flat_a a h1 b n k hr, tr_x4 x4 h2 k c]
  have el : Read.lidx_main_v57 (ix3 b n c) k = ix3 b n k := funext fun a => Fin.ext (by
    match a with | ⟨0, _⟩ => rfl | ⟨1, _⟩ => rfl | ⟨2, _⟩ => rfl)
  have er : Read.ridx_main_v57 (ix3 b n c) k = ix2 c k := funext fun a => Fin.ext (by
    match a with | ⟨0, _⟩ => rfl | ⟨1, _⟩ => rfl)
  rw [el, er]

end Cert.ReferenceIdeal.Bridge

end
-- ==== Proof.LibKeepdims.lean ====
/-
  Three general read-at-an-index lemmas for a row-wise reduction kept as a column (`keepdims=True`):
  a vector cast to a one-column matrix, a one-column matrix broadcast along its rows, and a lane sum of a matrix at the
  ideal values as a plain finite sum over the column index. Indices are written by coordinates of literal `Fin` types.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- At the ideal values a float lane sum of an `[a, b]` matrix from the zero word, read at row `i`, is the sum of that row's
    entries (no order, no rounding). The hypotheses are typed as a printed program spells them. -/
theorem laneSum_apply {a b : ℕ} (src : FVec Ideal ⟨2, ![a, b]⟩ .f32) (h : (⟨2, ![a, b]⟩ : Shape).Reduces [1] ⟨1, ![a]⟩)
    (hacc : (0x00000000#32 : BitVec 32) = 0x00000000#32) (i : Fin a) :
    multiReduction (F := Ideal) .add [1] ⟨1, ![a]⟩ src 0x00000000#32 h (.inl rfl) hacc (ix1 i) = ∑ k : Fin b, src (ix2 i k) := by
  refine (Ideal.multiReduction_add_single src 0x00000000#32 h (.inl rfl) hacc (ix1 i)).trans ?_
  refine Finset.sum_congr rfl fun k _ => congrArg src ?_
  funext d
  match d with
  | ⟨0, _⟩ => rfl
  | ⟨1, _⟩ => rfl

end Cert.LibKeepdims

end
-- ==== Proof.QkvValue.lean ====
/-
  The first tiled kernel's result, read whole: after its 32 grid points have written their 1024-row blocks back,
  the 32768 × 384 output array holds, at (r, o), the sum over k of x(r,k) · rowInv x r · g(k) · w(k,o), where x, g and w
  are the three input arrays as the region finds them.

  The road: (1) the body's one stored value, a matrix product of the row-normalised, gain-scaled block with the weight
  block, read at an index (p, q) of the block as a finite sum over the contracted axis; (2) the four windows' index maps
  related once over the grid (the x block and the output block move together along the rows; g and w are whole);
  (3) what a grid point writes back is its block of the whole-array function; (4) the blocks cover the array.
-/
import proofs.«128739_j25451976196875_1_alg».proof.Proof.Gen.KernelIdeal.Frame
import proofs.«128739_j25451976196875_1_alg».proof.Proof.Spec
import proofs.«128739_j25451976196875_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.QkvValue

open Cert.KernelIdeal Cert.KernelIdeal.Gen Idealize.ShloMosaic Idealize.ShloMosaic.TcCoe Idealize.SL.Sem Idealize.ShloMosaic.ValueIdx
open Idealize.ShloMosaic.Pipeline (Dat)

/-! ## The stored value at an index of the block -/

/-- The left operand's row coordinate at result index j is j's row, whatever the contraction position. -/
theorem lhs_row (j : S1024x384.Idx) (k : dot_S1024x1024_S1024x384_S1024x384_1_0_0_1_n_n.contr.Idx) :
    (dot_S1024x1024_S1024x384_S1024x384_1_0_0_1_n_n.lhsIdx j k 0).val = (j 0).val := by
  unfold DotDims.lhsIdx
  rw [dif_neg (show ¬(0 : Fin S1024x1024.rank) ∈ dot_S1024x1024_S1024x384_S1024x384_1_0_0_1_n_n.lhsBatch by decide), dif_pos (show (0 : Fin S1024x1024.rank) ∈ dot_S1024x1024_S1024x384_S1024x384_1_0_0_1_n_n.lhsNonContracting by decide)]
  rfl
/-- Its column coordinate is the contraction position's one coordinate. -/
theorem lhs_col (j : S1024x384.Idx) (k : dot_S1024x1024_S1024x384_S1024x384_1_0_0_1_n_n.contr.Idx) :
    (dot_S1024x1024_S1024x384_S1024x384_1_0_0_1_n_n.lhsIdx j k 1).val = (k ⟨0, by decide⟩).val :=
  dot_S1024x1024_S1024x384_S1024x384_1_0_0_1_n_n.lhsIdx_val_of_single rfl j k
/-- The right operand's row coordinate is the contraction position's one coordinate. -/
theorem rhs_row (j : S1024x384.Idx) (k : dot_S1024x1024_S1024x384_S1024x384_1_0_0_1_n_n.contr.Idx) :
    (dot_S1024x1024_S1024x384_S1024x384_1_0_0_1_n_n.rhsIdx j k 0).val = (k ⟨0, by decide⟩).val :=
  dot_S1024x1024_S1024x384_S1024x384_1_0_0_1_n_n.rhsIdx_val_of_single rfl j k
/-- Its column coordinate at result index j is j's column. -/
theorem rhs_col (j : S1024x384.Idx) (k : dot_S1024x1024_S1024x384_S1024x384_1_0_0_1_n_n.contr.Idx) :
    (dot_S1024x1024_S1024x384_S1024x384_1_0_0_1_n_n.rhsIdx j k 1).val = (j 1).val := by
  unfold DotDims.rhsIdx
  rw [dif_neg (show ¬(1 : Fin S1024x384.rank) ∈ dot_S1024x1024_S1024x384_S1024x384_1_0_0_1_n_n.rhsBatch by decide), dif_pos (show (1 : Fin S1024x384.rank) ∈ dot_S1024x1024_S1024x384_S1024x384_1_0_0_1_n_n.rhsNonContracting by decide)]
  rfl

/-- A 1024 × 1024 by 1024 × 384 matrix product onto the zero accumulator, at (p, q): the sum over the contracted
    coordinate k of the left operand at (p, k) times the right operand at (k, q). -/
theorem matmul_at (l : FVec Ideal S1024x1024 .bf16) (r : FVec Ideal S1024x384 .bf16) (p : Fin 1024) (q : Fin 384) :
    matmul dot_S1024x1024_S1024x384_S1024x384_1_0_0_1_n_n none l r (constant (F := Ideal) S1024x384 .f32 0x00000000#32) (ix2 p q)
      = ∑ k : Fin 1024, l (ix2 p k) * r (ix2 k q) := by
  refine (Ideal.matmul_constant_zero_apply dot_S1024x1024_S1024x384_S1024x384_1_0_0_1_n_n none l r (ix2 p q)).trans ?_
  rw [← Equiv.sum_comp (contrEquiv1 dot_S1024x1024_S1024x384_S1024x384_1_0_0_1_n_n 1024 rfl rfl).symm]
  refine Finset.sum_congr rfl fun k _ => ?_
  have hk := contrEquiv1_symm_val dot_S1024x1024_S1024x384_S1024x384_1_0_0_1_n_n 1024 rfl rfl k
  have el : dot_S1024x1024_S1024x384_S1024x384_1_0_0_1_n_n.lhsIdx (ix2 p q) ((contrEquiv1 dot_S1024x1024_S1024x384_S1024x384_1_0_0_1_n_n 1024 rfl rfl).symm k) = ix2 p k :=
    funext fun a => Fin.ext (by
      match a with
      | ⟨0, _⟩ => exact lhs_row _ _
      | ⟨1, _⟩ => exact (lhs_col _ _).trans hk)
  have er : dot_S1024x1024_S1024x384_S1024x384_1_0_0_1_n_n.rhsIdx (ix2 p q) ((contrEquiv1 dot_S1024x1024_S1024x384_S1024x384_1_0_0_1_n_n 1024 rfl rfl).symm k) = ix2 k q :=
    funext fun a => Fin.ext (by
      match a with
      | ⟨0, _⟩ => exact (rhs_row _ _).trans hk
      | ⟨1, _⟩ => exact rhs_col _ _)
  rw [el, er]

/-- The column of row factors of a block: entry (p, ·) is one over the square root of (the sum of row p's squares
    divided by 1024, plus the small constant). -/
def invCol (x0 : Vec Ideal S1024x1024 .f32) : FVec Ideal S1024x1 .f32 :=
  rsqrt (addf (divf (shapeCast S1024x1 (multiReduction (F := Ideal) .add [1] S1024 (mulf x0 x0) 0x00000000#32 reduces_S1024x1024_S1024 (.inl rfl) rfl) shapeCasts_S1024_S1024x1)
    (broadcast S1024x1 (Scalar.ofBits (F := Ideal) .f32 0x44800000#32))) (broadcast S1024x1 (Scalar.ofBits (F := Ideal) .f32 0x358637BD#32)))

theorem invCol_apply (x0 : Vec Ideal S1024x1024 .f32) (p : Fin 1024) (u : Fin 1) :
    invCol x0 (ix2 p u) = Ideal.rsqrt (Ideal.div (∑ c : Fin 1024, x0 (ix2 p c) * x0 (ix2 p c)) (Ideal.ofBits .f32 0x44800000#32) + Ideal.ofBits .f32 0x358637BD#32) := by
  have e1 : shapeCast S1024x1 (multiReduction (F := Ideal) .add [1] S1024 (mulf x0 x0) 0x00000000#32 reduces_S1024x1024_S1024 (.inl rfl) rfl) shapeCasts_S1024_S1024x1 (ix2 p u)
      = ∑ c : Fin 1024, x0 (ix2 p c) * x0 (ix2 p c) :=
    (Cert.LibKeepdims.shapeCast_a_a1_apply _ shapeCasts_S1024_S1024x1 p u).trans
      (Cert.LibKeepdims.laneSum_apply (mulf x0 x0) reduces_S1024x1024_S1024 rfl p)
  exact congrArg (fun s => Ideal.rsqrt (Ideal.div s (Ideal.ofBits .f32 0x44800000#32) + Ideal.ofBits .f32 0x358637BD#32)) e1

/-- The body's stored value with the identity casts removed and the column of row factors named. -/
theorem pay_eq (x0 : Vec Ideal S1024x1024 .f32) (x1 : Vec Ideal S1024 .f32) (x2 : Vec Ideal S1024x384 .f32) :
    k0_pay1 x0 x1 x2 = matmul dot_S1024x1024_S1024x384_S1024x384_1_0_0_1_n_n none
      (truncf .bf16 (mulf (mulf x0 (broadcastTo S1024x1024 (invCol x0) broadcasts_S1024x1_S1024x1024))
        (broadcastTo S1024x1024 (shapeCast S1x1024 x1 shapeCasts_S1024_S1x1024) broadcasts_S1x1024_S1024x1024)) bitsLt_bf16_f32)
      (truncf .bf16 x2 bitsLt_bf16_f32) (constant (F := Ideal) S1024x384 .f32 0x00000000#32) := by
  unfold k0_pay1 invCol
  simp only [shapeCast_self]

/-- THE STORED VALUE AT (p, q): the sum over k of the block's (p, k) entry times its row factor times the gain at k
    times the weight at (k, q). -/
theorem pay_apply (x0 : Vec Ideal S1024x1024 .f32) (x1 : Vec Ideal S1024 .f32) (x2 : Vec Ideal S1024x384 .f32) (p : Fin 1024) (q : Fin 384) :
    k0_pay1 x0 x1 x2 (ix2 p q) = ∑ k : Fin 1024, x0 (ix2 p k)
      * Ideal.rsqrt (Ideal.div (∑ c : Fin 1024, x0 (ix2 p c) * x0 (ix2 p c)) (Ideal.ofBits .f32 0x44800000#32) + Ideal.ofBits .f32 0x358637BD#32)
      * x1 (ix1 k) * x2 (ix2 k q) := by
  rw [pay_eq]
  refine (matmul_at _ _ p q).trans ?_
  refine Finset.sum_congr rfl fun k _ => ?_
  have eA : broadcastTo S1024x1024 (invCol x0) broadcasts_S1024x1_S1024x1024 (ix2 p k)
      = Ideal.rsqrt (Ideal.div (∑ c : Fin 1024, x0 (ix2 p c) * x0 (ix2 p c)) (Ideal.ofBits .f32 0x44800000#32) + Ideal.ofBits .f32 0x358637BD#32) :=
    (Cert.LibKeepdims.broadcastTo_a1_ab_apply (invCol x0) broadcasts_S1024x1_S1024x1024 p k).trans (invCol_apply x0 p 0)
  have eB : broadcastTo S1024x1024 (shapeCast S1x1024 x1 shapeCasts_S1024_S1x1024) broadcasts_S1x1024_S1024x1024 (ix2 p k) = x1 (ix1 k) :=
    (broadcastTo_1b_ab_apply _ broadcasts_S1x1024_S1024x1024 p k).trans (shapeCast_a_1a_apply x1 shapeCasts_S1024_S1x1024 0 k)
  show x0 (ix2 p k) * broadcastTo S1024x1024 (invCol x0) broadcasts_S1024x1_S1024x1024 (ix2 p k)
      * broadcastTo S1024x1024 (shapeCast S1x1024 x1 shapeCasts_S1024_S1x1024) broadcasts_S1x1024_S1024x1024 (ix2 p k) * x2 (ix2 k q) = _
  rw [eA, eB]

/-! ## One stored entry against the whole arrays -/

/-- If a point's three loaded blocks are rows i·1024 … i·1024 + 1023 of x (all columns), the whole of g and the whole
    of w, its stored value at block index j is the whole-array function at the array index y with row i·1024 + (j's row)
    and j's column. The row sum of squares runs over all 1024 columns of the row, which the block holds entire, so the
    block row's factor is the array row's. -/
theorem entry_eq (X : S32768x1024.Idx → EReal) (G : S1024.Idx → EReal) (W : S1024x384.Idx → EReal)
    (x0 : Vec Ideal S1024x1024 .f32) (x1 : Vec Ideal S1024 .f32) (x2 : Vec Ideal S1024x384 .f32) (i : ℕ)
    (h0 : ∀ (p k : Fin 1024) (r : Fin 32768), r.val = i * 1024 + p.val → x0 (ix2 p k) = X (ix2 r k))
    (h1 : ∀ k : Fin 1024, x1 (ix1 k) = G (ix1 k))
    (h2 : ∀ (k : Fin 1024) (o : Fin 384), x2 (ix2 k o) = W (ix2 k o))
    (j : S1024x384.Idx) (y : S32768x384.Idx) (hy0 : (y 0).val = i * 1024 + (j 0).val) (hy1 : (y 1).val = (j 1).val) :
    k0_pay1 x0 x1 x2 j = Cert.Xca.qkvRows X G W y := by
  obtain ⟨p, q, rfl⟩ : ∃ (p : Fin 1024) (q : Fin 384), j = ix2 p q := ⟨j 0, j 1, eq_ix2 j⟩
  obtain ⟨r, o, rfl⟩ : ∃ (r : Fin 32768) (o : Fin 384), y = ix2 r o := ⟨y 0, y 1, eq_ix2 y⟩
  have hr : r.val = i * 1024 + p.val := hy0
  obtain rfl : o = q := Fin.ext hy1
  rw [Cert.Xca.qkvRows_ix2, pay_apply]
  unfold Cert.Xca.qkvAt Cert.Xca.rowInv
  have hs : (∑ c : Fin 1024, x0 (ix2 p c) * x0 (ix2 p c)) = ∑ c : Fin 1024, X (ix2 r c) * X (ix2 r c) :=
    Finset.sum_congr rfl fun c _ => by rw [h0 p c r hr]
  rw [hs]
  refine Finset.sum_congr rfl fun k _ => ?_
  rw [h0 p k r hr, h1 k, h2 k o]

/-! ## The index maps over the grid -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the grid: the x window's row-block index is the output window's, its column-block
    index zero; the g and w windows stay at block zero; the output's column-block index is zero and its row-block index
    at most 31. -/
theorem idx_facts : ∀ t : Fin cfg0.N, win0_0.index t (0 : Fin 2) = win0_3.index t (0 : Fin 2)
    ∧ win0_0.index t (1 : Fin 2) = 0
    ∧ win0_1.index t (0 : Fin 1) = 0
    ∧ win0_2.index t (0 : Fin 2) = 0
    ∧ win0_2.index t (1 : Fin 2) = 0
    ∧ win0_3.index t (1 : Fin 2) = 0
    ∧ win0_3.index t (0 : Fin 2) ≤ 31 :=
  (by decide +kernel : ∀ t : Fin grid0.N, _)

/-- Every row block of the output is some point's. -/
theorem idx_onto : ∀ q : Fin 32, ∃ t : Fin cfg0.N, win0_3.index t = ![q.val, 0] :=
  (by decide +kernel : ∀ q : Fin 32, ∃ t : Fin grid0.N, win0_3.index t = ![q.val, 0])

/-! ## What a point writes back -/

section
variable (V : (c : Dev nD) → (b : Ref sig .tc) → Buf (Elt Ideal) ((c : Thread nD τ).loc b))

/-- WHAT POINT t WRITES BACK is block t of the whole-array function of the three input arrays as the region finds them. -/
theorem flushed_eq (c : Dev nD) (t : Fin cfg0.N) :
    (dat0 (F := Ideal) V c).flushed 3 t
      = ((cfg0.win 3).blk t).view.read (Elt Ideal) (Cert.Xca.qkvRows (V c main_v0) (V c main_arg1) (V c main_v1)) := by
  show (cfg0.win 3).cut (grid0.coords t) ((dat0 (F := Ideal) V c).after 3 t) = _
  rw [after0_3]
  unfold out0_3
  rw [View.canon_unit_zero hz2]
  simp only [View.ld_unit_zero (S := S1024x1024) hz2, View.ld_unit_zero (S := S1024) hz1, View.ld_unit_zero (S := S1024x384) hz2]
  obtain ⟨e0, e1, e2, e3, e4, e5, e6⟩ := idx_facts t
  funext j
  show k0_pay1 (iblk0 V c 0 t) (iblk0 V c 1 t) (iblk0 V c 2 t) j
    = Cert.Xca.qkvRows (V c main_v0) (V c main_arg1) (V c main_v1) (((cfg0.win 3).blk t).view.emb j)
  refine entry_eq (V c main_v0) (V c main_arg1) (V c main_v1) (iblk0 V c 0 t) (iblk0 V c 1 t) (iblk0 V c 2 t)
    (win0_3.index t (0 : Fin 2)) ?_ ?_ ?_ j (((cfg0.win 3).blk t).view.emb j) ?_ ?_
  · intro p k r hr
    show V c main_v0 (((cfg0.win 0).blk t).view.emb (ix2 p k)) = V c main_v0 (ix2 r k)
    refine congrArg (V c main_v0) (funext fun a => Fin.ext ?_)
    match a with
    | ⟨0, _⟩ => show win0_0.index t (0 : Fin 2) * 1024 + 1 * p.val = r.val; omega
    | ⟨1, _⟩ => show win0_0.index t (1 : Fin 2) * 1024 + 1 * k.val = k.val; omega
  · intro k
    show V c main_arg1 (((cfg0.win 1).blk t).view.emb (ix1 k)) = V c main_arg1 (ix1 k)
    refine congrArg (V c main_arg1) (funext fun a => Fin.ext ?_)
    match a with
    | ⟨0, _⟩ => show win0_1.index t (0 : Fin 1) * 1024 + 1 * k.val = k.val; omega
  · intro k o
    show V c main_v1 (((cfg0.win 2).blk t).view.emb (ix2 k o)) = V c main_v1 (ix2 k o)
    refine congrArg (V c main_v1) (funext fun a => Fin.ext ?_)
    match a with
    | ⟨0, _⟩ => show win0_2.index t (0 : Fin 2) * 1024 + 1 * k.val = k.val; omega
    | ⟨1, _⟩ => show win0_2.index t (1 : Fin 2) * 384 + 1 * o.val = o.val; omega
  · show win0_3.index t (0 : Fin 2) * 1024 + 1 * (j 0).val = win0_3.index t (0 : Fin 2) * 1024 + (j 0).val
    omega
  · show win0_3.index t (1 : Fin 2) * 384 + 1 * (j 1).val = (j 1).val
    omega

/-! ## The blocks cover the array -/

/-- An index of the output array is in point t's block iff each coordinate is in the block's range on its axis. -/
theorem mem_blk (t : Fin cfg0.N) (i : S32768x384.Idx) :
    i ∈ ((cfg0.win 3).blk t).view.set ↔ ∀ a : Fin 2, win0_3.index t a * S1024x384.size a ≤ (i a).val ∧ (i a).val < win0_3.index t a * S1024x384.size a + S1024x384.size a := by
  show i ∈ ((View.whole main_v2).slice (win0_3.rect t)).set ↔ _
  rw [View.set_slice_whole, Rect.mem_set_unit]
  exact Iff.rfl

/-- Row r of the output lies in the block of the point whose row-block index is r / 1024. -/
theorem cover (i : S32768x384.Idx) : ∃ t : Fin cfg0.N, (cfg0.win 3).flush t = true ∧ i ∈ ((cfg0.win 3).blk t).view.set := by
  have hi0 : (i 0).val < 32768 := (i 0).isLt
  have hi1 : (i 1).val < 384 := (i 1).isLt
  obtain ⟨t, ht⟩ := idx_onto ⟨(i 0).val / 1024, by omega⟩
  have q0 : win0_3.index t (0 : Fin 2) = (i 0).val / 1024 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 384 ≤ (i 1).val ∧ (i 1).val < win0_3.index t (1 : Fin 2) * 384 + 384; omega

end

/-- THE OUTPUT ARRAY after the region's 32 points have written back: at (r, o), the sum over k of
    x(r,k) · rowInv x r · g(k) · w(k,o), of the three input arrays as the region finds them. -/
theorem final (V : (c : Dev nD) → (b : Ref sig .tc) → Buf (Elt Ideal) ((c : Thread nD τ).loc b)) (c : Dev nD) :
    (Gen.dat0 (F := Ideal) V c).arrAt 3 cfg0.N = Cert.Xca.qkvRows (V c main_v0) (V c main_arg1) (V c main_v1) :=
  (dat0 (F := Ideal) V c).arrAt_eq_of_cover 3 _ (fun t _ => flushed_eq V c t) cover

end Cert.KernelIdeal.QkvValue

end
-- ==== Proof.ProjValue.lean ====
/-
  The output projection, as one whole-array function.

  The second tiled region multiplies a 32768 × 128 matrix by a 128 × 1024 matrix, 1024 rows at a grid point: point `t`
  loads rows `1024 t … 1024 t + 1023` of the left factor and the whole right factor, and writes rows
  `1024 t … 1024 t + 1023` of the product. A change of float format is the identity on extended reals, so the body's
  product of one block of rows is, entry by entry, the finite sum over the contracted axis of the factors' entries;
  the 32 blocks of rows tile the output, so after the last write-back the output array is the whole product.
-/
import proofs.«128739_j25451976196875_1_alg».proof.Proof.Gen.KernelIdeal.Frame
import proofs.«128739_j25451976196875_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.ProjValue

open Cert.KernelIdeal Cert.KernelIdeal.Gen Idealize.ShloMosaic Idealize.ShloMosaic.TcCoe Idealize.SL.Sem Idealize.ShloMosaic.ValueIdx
open Idealize.ShloMosaic.Pipeline (Dat)

/-! ## One block of rows: the body's product at an entry -/

/-- The left operand's row at an output entry is the output's row, whatever the contraction position … -/
theorem lhs_row (i : S1024x1024.Idx) (k : dot_S1024x128_S128x1024_S1024x1024_1_0_0_1_n_n.contr.Idx) :
    (dot_S1024x128_S128x1024_S1024x1024_1_0_0_1_n_n.lhsIdx i k 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl

/-- … and its column the contraction position's one coordinate. -/
theorem lhs_col (i : S1024x1024.Idx) (k : dot_S1024x128_S128x1024_S1024x1024_1_0_0_1_n_n.contr.Idx) :
    (dot_S1024x128_S128x1024_S1024x1024_1_0_0_1_n_n.lhsIdx i k 1).val = (k ⟨0, by decide⟩).val :=
  dot_S1024x128_S128x1024_S1024x1024_1_0_0_1_n_n.lhsIdx_val_of_single rfl i k

/-- The right operand's row at an output entry is the contraction position's one coordinate … -/
theorem rhs_row (i : S1024x1024.Idx) (k : dot_S1024x128_S128x1024_S1024x1024_1_0_0_1_n_n.contr.Idx) :
    (dot_S1024x128_S128x1024_S1024x1024_1_0_0_1_n_n.rhsIdx i k 0).val = (k ⟨0, by decide⟩).val :=
  dot_S1024x128_S128x1024_S1024x1024_1_0_0_1_n_n.rhsIdx_val_of_single rfl i k

/-- … and its column the output's column. -/
theorem rhs_col (i : S1024x1024.Idx) (k : dot_S1024x128_S128x1024_S1024x1024_1_0_0_1_n_n.contr.Idx) :
    (dot_S1024x128_S128x1024_S1024x1024_1_0_0_1_n_n.rhsIdx i k 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-- The body's product of a 1024 × 128 block by the 128 × 1024 factor, at entry `(p, q)`: the sum over the contracted
    axis of the products of the entries (the casts to the same shape and the narrowings are identities). -/
theorem pay_apply (x0 : Vec Ideal S1024x128 .f32) (x1 : Vec Ideal S128x1024 .f32) (p q : Fin 1024) :
    k1_pay1 (F := Ideal) x0 x1 (ix2 p q) = ∑ k : Fin 128, x0 (ix2 p k) * x1 (ix2 k q) := by
  unfold k1_pay1
  refine (Ideal.matmul_constant_zero_apply dot_S1024x128_S128x1024_S1024x1024_1_0_0_1_n_n none _ _ (ix2 p q)).trans ?_
  rw [← Equiv.sum_comp (contrEquiv1 dot_S1024x128_S128x1024_S1024x1024_1_0_0_1_n_n 128 rfl rfl).symm]
  refine Finset.sum_congr rfl fun k _ => ?_
  have hk := contrEquiv1_symm_val dot_S1024x128_S128x1024_S1024x1024_1_0_0_1_n_n 128 rfl rfl k
  have el : dot_S1024x128_S128x1024_S1024x1024_1_0_0_1_n_n.lhsIdx (ix2 p q)
      ((contrEquiv1 dot_S1024x128_S128x1024_S1024x1024_1_0_0_1_n_n 128 rfl rfl).symm k) = ix2 p k :=
    funext fun a => Fin.ext (by
      match a with
      | ⟨0, _⟩ => exact lhs_row _ _
      | ⟨1, _⟩ => exact (lhs_col _ _).trans hk)
  have er : dot_S1024x128_S128x1024_S1024x1024_1_0_0_1_n_n.rhsIdx (ix2 p q)
      ((contrEquiv1 dot_S1024x128_S128x1024_S1024x1024_1_0_0_1_n_n 128 rfl rfl).symm k) = ix2 k q :=
    funext fun a => Fin.ext (by
      match a with
      | ⟨0, _⟩ => exact (rhs_row _ _).trans hk
      | ⟨1, _⟩ => exact rhs_col _ _)
  rw [el, er, truncf_apply, truncf_apply, shapeCast_self, shapeCast_self]

/-! ## From the blocks of rows to the array -/

theorem zero_off : (![0, 0] : Fin 2 → Nat) = fun _ => 0 := funext fun a => by fin_cases a <;> rfl

/-- The printed index maps, decided over the 32 grid points: the left factor's block of rows moves with the output's,
    both at column block 0; the right factor is one block; the output's row block stays below 32. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 31 :=
  (by decide +kernel : ∀ t : Fin grid1.N, _)

/-- Every one of the 32 blocks of rows is some grid point's. -/
theorem index_onto : ∀ q : Fin 32, ∃ t : Fin cfg1.N, win1_2.index t = ![q.val, 0] :=
  (by decide +kernel : ∀ q : Fin 32, ∃ t : Fin grid1.N, win1_2.index t = ![q.val, 0])

section

variable (V : (c : Dev nD) → (b : Ref sig .tc) → Buf (Elt Ideal) ((c : Thread nD τ).loc b))

/-- The left factor's block at point `t`, at `(p, k)`, is the array's entry at row `1024 · (row block) + p`, column `k`. -/
theorem lhs_block (c : Dev nD) (t : Fin cfg1.N) (p : Fin 1024) (k : Fin 128) (r : Fin 32768)
    (hr : r.val = win1_2.index t (0 : Fin 2) * 1024 + p.val) :
    (iblk1 (F := Ideal) V c 0 t : Vec Ideal S1024x128 .f32) (ix2 p k) = (V c main_v46 : S32768x128.Idx → EReal) (ix2 r k) := by
  obtain ⟨e0, e1, -⟩ := index_facts t
  show V c main_v46 (((cfg1.win 0).blk t).view.emb (ix2 p k)) = V c main_v46 (ix2 r k)
  refine congrArg (V c main_v46) ?_
  funext a
  apply Fin.ext
  match a with
  | ⟨0, _⟩ => show win1_0.index t (0 : Fin 2) * 1024 + 1 * p.val = r.val; omega
  | ⟨1, _⟩ => show win1_0.index t (1 : Fin 2) * 128 + 1 * k.val = k.val; omega

/-- The right factor's block at any point is the whole array. -/
theorem rhs_block (c : Dev nD) (t : Fin cfg1.N) (k : Fin 128) (q : Fin 1024) :
    (iblk1 (F := Ideal) V c 1 t : Vec Ideal S128x1024 .f32) (ix2 k q) = (V c main_v47 : S128x1024.Idx → EReal) (ix2 k q) := by
  obtain ⟨-, -, e2, e3, -⟩ := index_facts t
  show V c main_v47 (((cfg1.win 1).blk t).view.emb (ix2 k q)) = V c main_v47 (ix2 k q)
  refine congrArg (V c main_v47) ?_
  funext a
  apply Fin.ext
  match a with
  | ⟨0, _⟩ => show win1_1.index t (0 : Fin 2) * 128 + 1 * k.val = k.val; omega
  | ⟨1, _⟩ => show win1_1.index t (1 : Fin 2) * 1024 + 1 * q.val = q.val; omega

/-- The whole product at an index whose coordinates are `r` and `j`: the sum over the contracted axis. -/
theorem projRows_at (a : S32768x128.Idx → EReal) (wt : S128x1024.Idx → EReal) (i : S32768x1024.Idx) (r : Fin 32768)
    (j : Fin 1024) (hr : (i 0).val = r.val) (hj : (i 1).val = j.val) :
    Cert.Xca.projRows a wt i = ∑ k : Fin 128, a (ix2 r k) * wt (ix2 k j) := by
  have e : i = ix2 r j := funext fun d => Fin.ext (by
    match d with
    | ⟨0, _⟩ => exact hr
    | ⟨1, _⟩ => exact hj)
  rw [e]
  rfl

/-- What point `t` writes back is its block of rows of the whole product: the body's result over the point's input
    blocks, each read where the output's block of rows says. -/
theorem flushed_eq (c : Dev nD) (t : Fin cfg1.N) :
    (dat1 (F := Ideal) V c).flushed 2 t
      = ((cfg1.win 2).blk t).view.read (Elt Ideal) (Cert.Xca.projRows (V c main_v46) (V c main_v47)) := by
  show (cfg1.win 2).cut (grid1.coords t) ((dat1 V c).after 2 t) = _
  rw [after1_2]
  unfold out1_2
  rw [View.canon_unit_zero zero_off]
  simp only [View.ld_unit_zero (S := S1024x128) zero_off, View.ld_unit_zero (S := S128x1024) zero_off]
  obtain ⟨-, -, -, -, e4, e5⟩ := index_facts t
  funext j
  obtain ⟨p, q, rfl⟩ : ∃ (p q : Fin 1024), j = ix2 p q := ⟨j 0, j 1, eq_ix2 j⟩
  have hp : win1_2.index t (0 : Fin 2) * 1024 + p.val < 32768 := by have := p.isLt; omega
  show k1_pay1 (F := Ideal) (iblk1 V c 0 t) (iblk1 V c 1 t) (ix2 p q)
    = Cert.Xca.projRows (V c main_v46) (V c main_v47) (((cfg1.win 2).blk t).view.emb (ix2 p q))
  refine (pay_apply _ _ p q).trans ?_
  refine Eq.trans ?_ (projRows_at _ _ _ ⟨win1_2.index t (0 : Fin 2) * 1024 + p.val, hp⟩ q ?_ ?_).symm
  · refine Finset.sum_congr rfl fun k _ => ?_
    exact congrArg₂ (· * ·) (lhs_block V c t p k ⟨_, hp⟩ rfl) (rhs_block V c t k q)
  · show win1_2.index t (0 : Fin 2) * 1024 + 1 * p.val = win1_2.index t (0 : Fin 2) * 1024 + p.val
    omega
  · show win1_2.index t (1 : Fin 2) * 1024 + 1 * q.val = q.val
    omega

end

/-- An index of the output array is in point `t`'s block iff each coordinate is in the block's range on its axis. -/
theorem mem_blk (t : Fin cfg1.N) (i : S32768x1024.Idx) :
    i ∈ ((cfg1.win 2).blk t).view.set ↔ ∀ a : Fin 2, win1_2.index t a * S1024x1024.size a ≤ (i a).val
      ∧ (i a).val < win1_2.index t a * S1024x1024.size a + S1024x1024.size a := by
  show i ∈ ((View.whole main_v48).slice (win1_2.rect t)).set ↔ _
  rw [View.set_slice_whole, Rect.mem_set_unit]
  exact Iff.rfl

/-- Every index of the output array is in some point's block: row `r` in the block of rows number `r / 1024`. -/
theorem covered (i : S32768x1024.Idx) :
    ∃ t : Fin cfg1.N, (cfg1.win 2).flush t = true ∧ i ∈ ((cfg1.win 2).blk t).view.set := by
  have hi0 : (i 0).val < 32768 := (i 0).isLt
  have hi1 : (i 1).val < 1024 := (i 1).isLt
  obtain ⟨t, ht⟩ := index_onto ⟨(i 0).val / 1024, by omega⟩
  have q0 : win1_2.index t (0 : Fin 2) = (i 0).val / 1024 := congrFun ht 0
  have q1 : win1_2.index t (1 : Fin 2) = 0 := congrFun ht 1
  refine ⟨t, flush1_2 t, ?_⟩
  rw [mem_blk]
  intro a
  match a with
  | ⟨0, _⟩ =>
    show win1_2.index t (0 : Fin 2) * 1024 ≤ (i 0).val ∧ (i 0).val < win1_2.index t (0 : Fin 2) * 1024 + 1024
    omega
  | ⟨1, _⟩ =>
    show win1_2.index t (1 : Fin 2) * 1024 ≤ (i 1).val ∧ (i 1).val < win1_2.index t (1 : Fin 2) * 1024 + 1024
    omega

/-- After the region's 32 points have written back, the output array is the whole product: entry `(r, j)` is the sum
    over `k` of the left array's `(r, k)` times the right array's `(k, j)`. -/
theorem final (V : (c : Dev nD) → (b : Ref sig .tc) → Buf (Elt Ideal) ((c : Thread nD τ).loc b)) (c : Dev nD) :
    (Gen.dat1 (F := Ideal) V c).arrAt 2 cfg1.N = Cert.Xca.projRows (V c main_v46) (V c main_v47) :=
  (dat1 (F := Ideal) V c).arrAt_eq_of_cover 2 _ (fun t _ => flushed_eq V c t) covered

end Cert.KernelIdeal.ProjValue

end
-- ==== Proof.lean ====
/-
  Two programs compute one function of five arrays — an input x [8, 4096, 1024], a gain g [1024], a weight
  w₁ [384, 1024], a per-head temperature t [8, 1, 1] and a weight w₂ [1024, 128] — and this file proves that on extended
  reals their results are equal entry by entry.

  Both normalise every token's 1024 channels by the inverse square root of the mean of their squares plus a small
  constant, scale channel k by g k, and contract with w₁ into 384 = 3 · 8 · 16 values per token; both then apply the same
  chain of host operations (split into three components per head, normalise two of them along the tokens, scale by
  the exponential of the temperature, form 16 × 16 logits per batch and head, softmax their rows, weigh the third
  component) and contract the 128 resulting values per token with w₂. The kernel program carries out the two
  contractions in tiled regions over the 32768 = 8 · 4096 flattened tokens, 1024 tokens at a grid point, against
  transposed weights; the reference carries them out as whole-array contractions. A tiled region's output array is,
  row by row, the finite sum over the contracted channel (the two region-value modules); row b · 4096 + n of the
  flattened array is entry (b, n) of the reference's contraction (the reference bridge); the host chain between
  the regions is the reference's own, a contraction's precision tag meaning nothing on extended reals (the middle
  function). No step uses a law that fails at an infinity, so the precondition is never opened.

  The three frame claims are the generated frames (the reference's is its generated run with the result dropped); the
  ideal pass rewrote nothing, so the idealization claim is trivial.
-/
import proofs.«128739_j25451976196875_1_alg».proof.Defs
import proofs.«128739_j25451976196875_1_alg».proof.Proof.Gen.Kernel
import proofs.«128739_j25451976196875_1_alg».proof.Proof.Gen.Kernel.Skeleton
import proofs.«128739_j25451976196875_1_alg».proof.Proof.Gen.Kernel.Launch
import proofs.«128739_j25451976196875_1_alg».proof.Proof.Gen.Kernel.Points
import proofs.«128739_j25451976196875_1_alg».proof.Proof.Gen.Kernel.Frame
import proofs.«128739_j25451976196875_1_alg».proof.Proof.Gen.KernelIdeal
import proofs.«128739_j25451976196875_1_alg».proof.Proof.Gen.KernelIdeal.Skeleton
import proofs.«128739_j25451976196875_1_alg».proof.Proof.Gen.KernelIdeal.Launch
import proofs.«128739_j25451976196875_1_alg».proof.Proof.Gen.KernelIdeal.Points
import proofs.«128739_j25451976196875_1_alg».proof.Proof.Gen.KernelIdeal.Frame
import proofs.«128739_j25451976196875_1_alg».proof.Proof.Gen.ReferenceIdeal
import proofs.«128739_j25451976196875_1_alg».proof.Proof.Gen.ReferenceIdeal.Run
import proofs.«128739_j25451976196875_1_alg».proof.Proof.Gen.ReferenceIdeal.Read
import proofs.«128739_j25451976196875_1_alg».proof.Proof.Gen.Pre_finite_inputs
import proofs.«128739_j25451976196875_1_alg».proof.Proof.Spec
import proofs.«128739_j25451976196875_1_alg».proof.Proof.ResultRun
import proofs.«128739_j25451976196875_1_alg».proof.Proof.Fold
import proofs.«128739_j25451976196875_1_alg».proof.Proof.Mid
import proofs.«128739_j25451976196875_1_alg».proof.Proof.RefMid
import proofs.«128739_j25451976196875_1_alg».proof.Proof.RefBridge
import proofs.«128739_j25451976196875_1_alg».proof.Proof.QkvValue
import proofs.«128739_j25451976196875_1_alg».proof.Proof.ProjValue
import Idealize.ShloMosaic.Adequacy
import Idealize.ShloMosaic.Init

noncomputable section

open Idealize.ShloMosaic Idealize.ShloMosaic.TcCoe Idealize.SL.Sem

namespace Cert.Proof.Values

/-- The kernel program's result, read off the fold of its segments, is the reference's last stage of the kernel's
    own argument arrays: the first region's array is the reference's first contraction row by row, the host chain
    between the regions is the reference's, and the second region's array is the reference's last contraction. -/
theorem kernel_result (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W5 m ρ c (Proc.devRef .tc Cert.KernelIdeal.main_v49)
      = Cert.ReferenceIdeal.Read.val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  rw [Cert.KernelIdeal.Fold.result_fold, Cert.KernelIdeal.ProjValue.final, Cert.KernelIdeal.Fold.entry1_a, Cert.KernelIdeal.Fold.entry1_w,
    Cert.KernelIdeal.QkvValue.final, Cert.KernelIdeal.Fold.entry0_x, Cert.KernelIdeal.Fold.entry0_g, Cert.KernelIdeal.Fold.entry0_w]
  rw [Cert.ReferenceIdeal.Bridge.qkv_eq, Cert.KernelIdeal.Mid.mid_tag, ← Cert.ReferenceIdeal.MidStages.stage56_eq_mid, Cert.ReferenceIdeal.Bridge.proj_eq]
  rfl

end Cert.Proof.Values

namespace Cert.Proof.Claims

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the same result: the reference's last stage of the (agreeing) arguments. -/
theorem algebraic : Cert.algebraic_KernelIdeal_ReferenceIdeal := by
  intro m ρ m' ρ' _ hagree
  refine ⟨fun c => Cert.ReferenceIdeal.Read.val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun r h c => ⟨(h c).1.trans (Cert.Proof.Values.kernel_result m ρ c), (h c).2⟩)
      (Cert.KernelIdeal.ResultRun.run_result (F := Ideal) m ρ)
  · refine (θ_run Cert.ReferenceIdeal.defs _ _).mono (fun _ h c => ⟨(h c).1.trans ?_, (h c).2⟩) (Cert.ReferenceIdeal.Value.run (F := Ideal) m' ρ')
    rw [Cert.ReferenceIdeal.Read.val_main_v57_eq, (hagree c).1, (hagree c).2.1, (hagree c).2.2.1, (hagree c).2.2.2.1, (hagree c).2.2.2.2]

end Cert.Proof.Claims

namespace Cert.Proof

theorem claim : Cert.Claim := ⟨Cert.Kernel.Gen.facts, Cert.KernelIdeal.Gen.facts, Cert.ReferenceIdeal.Gen.facts, Cert.Pre_finite_inputs.Gen.facts,
  Cert.Proof.Claims.frame_kernel, Cert.Proof.Claims.frame_kernelIdeal, Cert.Proof.Claims.frame_referenceIdeal, trivial,
  Cert.Proof.Claims.algebraic⟩

end Cert.Proof

end
